-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64 .f32) (main_arg7 : FVec F S128x64 .f32) (main_arg8 : FVec F S64 .f32) (main_arg9 : FVec F S64x64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x64 .f32) (main_arg1 : IVec S800000 32) (main_arg2 : IVec S800000 32) (main_arg3 : FVec F S128x64 .f32) (main_arg4 : FVec F S64 .f32) (main_arg5 : FVec F S64x64 .f32) (main_arg6 : FVec F S64 .f32) (main_arg7 : FVec F S128x64 .f32) (main_arg8 : FVec F S64 .f32) (main_arg9 : FVec F S64x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S50000x64 : Shape := ⟨2, ![50000, 64]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S8000x64 : Shape := ⟨2, ![8000, 64]⟩
abbrev S5000x64 : Shape := ⟨2, ![5000, 64]⟩
abbrev S5000x1 : Shape := ⟨2, ![5000, 1]⟩

abbrev nBuf : Space → Nat
  | .hbm => 86
  | .vmem => 34
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .f32⟩
  | .hbm, ⟨42, _⟩ => ⟨S64x64, .f32⟩
  | .hbm, ⟨43, _⟩ => ⟨S64x64, .bf16⟩
  | .hbm, ⟨44, _⟩ => ⟨S64x64, .f32⟩
  | .hbm, ⟨45, _⟩ => ⟨S64x64, .bf16⟩
  | .hbm, ⟨46, _⟩ => ⟨S1x64, .f32⟩
  | .hbm, ⟨47, _⟩ => ⟨S800000x64, .f32⟩
  | .hbm, ⟨48, _⟩ => ⟨S_, .f32⟩
  | .hbm, ⟨49, _⟩ => ⟨S50000x64, .f32⟩
  | .hbm, ⟨50, _⟩ => ⟨S800000x1, .i32⟩
  | .hbm, ⟨51, _⟩ => ⟨S50000x64, .f32⟩
  | .hbm, ⟨52, _⟩ => ⟨S64x64, .bf16⟩
  | .hbm, ⟨53, _⟩ => ⟨S1x64, .f32⟩
  | .hbm, ⟨54, _⟩ => ⟨S50000x64, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x64, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x64, .f32⟩
  | .hbm, ⟨73, _⟩ => ⟨S64x64, .f32⟩
  | .hbm, ⟨74, _⟩ => ⟨S64x64, .bf16⟩
  | .hbm, ⟨75, _⟩ => ⟨S64x64, .f32⟩
  | .hbm, ⟨76, _⟩ => ⟨S64x64, .bf16⟩
  | .hbm, ⟨77, _⟩ => ⟨S1x64, .f32⟩
  | .hbm, ⟨78, _⟩ => ⟨S800000x64, .f32⟩
  | .hbm, ⟨79, _⟩ => ⟨S_, .f32⟩
  | .hbm, ⟨80, _⟩ => ⟨S50000x64, .f32⟩
  | .hbm, ⟨81, _⟩ => ⟨S800000x1, .i32⟩
  | .hbm, ⟨82, _⟩ => ⟨S50000x64, .f32⟩
  | .hbm, ⟨83, _⟩ => ⟨S64x64, .bf16⟩
  | .hbm, ⟨84, _⟩ => ⟨S1x64, .f32⟩
  | .hbm, ⟨85, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S64x64, .bf16⟩
  | .local _ .vmem, ⟨5, _⟩ => ⟨S64x64, .bf16⟩
  | .local _ .vmem, ⟨6, _⟩ => ⟨S1x64, .f32⟩
  | .local _ .vmem, ⟨7, _⟩ => ⟨S8000x64, .f32⟩
  | .local _ .vmem, ⟨8, _⟩ => ⟨S8000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S64x64, .bf16⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S8000x64, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S64x64, .bf16⟩
  | .local _ .vmem, ⟨22, _⟩ => ⟨S64x64, .bf16⟩
  | .local _ .vmem, ⟨23, _⟩ => ⟨S1x64, .f32⟩
  | .local _ .vmem, ⟨24, _⟩ => ⟨S8000x64, .f32⟩
  | .local _ .vmem, ⟨25, _⟩ => ⟨S8000x64, .f32⟩
  | .local _ .vmem, ⟨26, _⟩ => ⟨S5000x64, .f32⟩
  | .local _ .vmem, ⟨27, _⟩ => ⟨S5000x64, .f32⟩
  | .local _ .vmem, ⟨28, _⟩ => ⟨S5000x1, .f32⟩
  | .local _ .vmem, ⟨29, _⟩ => ⟨S5000x1, .f32⟩
  | .local _ .vmem, ⟨30, _⟩ => ⟨S64x64, .bf16⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  slices_S128x64_S64x64_0_0 : S128x64.Slices ![0, 0] S64x64
  bitsLt_bf16_f32 : FTy.bits .bf16 < FTy.bits .f32
  slices_S128x64_S64x64_64_0 : S128x64.Slices ![64, 0] S64x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  broadcasts_S1x64_S5000x64 : S1x64.Broadcasts S5000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S800000x64.size a
  hwx0_5 : ∀ i : grid0.Coords, EltTy.bits .f32 = 32 ∨ (Rect.block (s := S800000x64) S8000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S800000x64.size a
  hwx2_0 : ∀ i : grid2.Coords, EltTy.bits .f32 = 32 ∨ (Rect.block (s := S800000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S800000x64.size a
  hwx2_1 : ∀ i : grid2.Coords, EltTy.bits .f32 = 32 ∨ (Rect.block (s := S800000x64) S8000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .bf16 = 32 ∨ (Rect.block (s := S64x64) S64x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x64.size a ≤ S800000x64.size a
  hwx2_5 : ∀ i : grid2.Coords, EltTy.bits .f32 = 32 ∨ (Rect.block (s := S800000x64) S8000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .bf16 = 32 ∨ (Rect.block (s := S64x64) S64x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v15) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S8000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x64 : Shape := ⟨2, ![50000, 64]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x64 : Shape := ⟨2, ![1, 64]⟩
abbrev S50000 : Shape := ⟨1, ![50000]⟩
abbrev S50000x1 : Shape := ⟨2, ![50000, 1]⟩

abbrev nBuf : Space → Nat
  | .hbm => 109
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x128, .f32⟩
  | .hbm, ⟨30, _⟩ => ⟨S800000x64, .f32⟩
  | .hbm, ⟨31, _⟩ => ⟨S1x64, .f32⟩
  | .hbm, ⟨32, _⟩ => ⟨S800000x64, .f32⟩
  | .hbm, ⟨33, _⟩ => ⟨S800000x64, .f32⟩
  | .hbm, ⟨34, _⟩ => ⟨S_, .f32⟩
  | .hbm, ⟨35, _⟩ => ⟨S800000x64, .f32⟩
  | .hbm, ⟨36, _⟩ => ⟨S800000x64, .f32⟩
  | .hbm, ⟨37, _⟩ => ⟨S_, .f32⟩
  | .hbm, ⟨38, _⟩ => ⟨S50000x64, .f32⟩
  | .hbm, ⟨39, _⟩ => ⟨S800000x1, .i32⟩
  | .hbm, ⟨40, _⟩ => ⟨S50000x64, .f32⟩
  | .hbm, ⟨41, _⟩ => ⟨S_, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x64, .f32⟩
  | .hbm, ⟨52, _⟩ => ⟨S50000x64, .f32⟩
  | .hbm, ⟨53, _⟩ => ⟨S50000x64, .f32⟩
  | .hbm, ⟨54, _⟩ => ⟨S1x64, .f32⟩
  | .hbm, ⟨55, _⟩ => ⟨S50000x64, .f32⟩
  | .hbm, ⟨56, _⟩ => ⟨S50000x64, .f32⟩
  | .hbm, ⟨57, _⟩ => ⟨S_, .f32⟩
  | .hbm, ⟨58, _⟩ => ⟨S50000x64, .f32⟩
  | .hbm, ⟨59, _⟩ => ⟨S50000x64, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x64, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x64, .f32⟩
  | .hbm, ⟨78, _⟩ => ⟨S800000x128, .f32⟩
  | .hbm, ⟨79, _⟩ => ⟨S800000x64, .f32⟩
  | .hbm, ⟨80, _⟩ => ⟨S1x64, .f32⟩
  | .hbm, ⟨81, _⟩ => ⟨S800000x64, .f32⟩
  | .hbm, ⟨82, _⟩ => ⟨S800000x64, .f32⟩
  | .hbm, ⟨83, _⟩ => ⟨S_, .f32⟩
  | .hbm, ⟨84, _⟩ => ⟨S800000x64, .f32⟩
  | .hbm, ⟨85, _⟩ => ⟨S800000x64, .f32⟩
  | .hbm, ⟨86, _⟩ => ⟨S_, .f32⟩
  | .hbm, ⟨87, _⟩ => ⟨S50000x64, .f32⟩
  | .hbm, ⟨88, _⟩ => ⟨S800000x1, .i32⟩
  | .hbm, ⟨89, _⟩ => ⟨S50000x64, .f32⟩
  | .hbm, ⟨90, _⟩ => ⟨S_, .f32⟩
  | .hbm, ⟨91, _⟩ => ⟨S800000, .f32⟩
  | .hbm, ⟨92, _⟩ => ⟨S_, .f32⟩
  | .hbm, ⟨93, _⟩ => ⟨S50000, .f32⟩
  | .hbm, ⟨94, _⟩ => ⟨S800000x1, .i32⟩
  | .hbm, ⟨95, _⟩ => ⟨S50000, .f32⟩
  | .hbm, ⟨96, _⟩ => ⟨S_, .f32⟩
  | .hbm, ⟨97, _⟩ => ⟨S50000, .f32⟩
  | .hbm, ⟨98, _⟩ => ⟨S50000, .f32⟩
  | .hbm, ⟨99, _⟩ => ⟨S50000x1, .f32⟩
  | .hbm, ⟨100, _⟩ => ⟨S50000x64, .f32⟩
  | .hbm, ⟨101, _⟩ => ⟨S50000x64, .f32⟩
  | .hbm, ⟨102, _⟩ => ⟨S50000x64, .f32⟩
  | .hbm, ⟨103, _⟩ => ⟨S1x64, .f32⟩
  | .hbm, ⟨104, _⟩ => ⟨S50000x64, .f32⟩
  | .hbm, ⟨105, _⟩ => ⟨S50000x64, .f32⟩
  | .hbm, ⟨106, _⟩ => ⟨S_, .f32⟩
  | .hbm, ⟨107, _⟩ => ⟨S50000x64, .f32⟩
  | .hbm, ⟨108, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_cst : Ref sig .tc := ⟨.hbm, 57, rfl⟩
abbrev main_call1_v0 : Ref sig .tc := ⟨.hbm, 58, rfl⟩
abbrev main_v36 : Ref sig .tc := ⟨.hbm, 59, rfl⟩
abbrev main_c_6 : Ref sig .tc := ⟨.hbm, 60, rfl⟩
abbrev main_v37 : Ref sig .tc := ⟨.hbm, 61, rfl⟩
abbrev main_v38 : Ref sig .tc := ⟨.hbm, 62, rfl⟩
abbrev main_c_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_8 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call2_cst : Ref sig .tc := ⟨.hbm, 83, rfl⟩
abbrev main_call2_v0 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_call3_cst : Ref sig .tc := ⟨.hbm, 106, rfl⟩
abbrev main_call3_v0 : Ref sig .tc := ⟨.hbm, 107, rfl⟩
abbrev main_v73 : Ref sig .tc := ⟨.hbm, 108, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel's run, with its result named.

  The program is eight segments: four stretches of host operations, each followed by a kernel call.  At the end every
  buffer the program does not scope holds the contents the segments' fold gives it; the frame statement reads the
  argument buffers off that fold, and here the result buffer is read off it as well: the last call's output array as
  the fold leaves it.
-/
import proofs.«124464_j89799176224972_1_alg».proof.Proof.Gen.KernelIdeal.Frame

noncomputable section

set_option maxRecDepth 16384

namespace Cert.MsgPass.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents
    the segments' fold leaves there and the argument buffers as launched. -/
theorem run_result : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.MsgPass.KernelRun

end
-- ==== Proof.Spec.lean ====
/-
  The mathematics of one message-passing layer, on the extended reals.

  An edge's message is a bias plus two 64-term sums — its source row against the upper half of the edge weights and
  its destination row against the lower half — clipped below at zero.  A node's new row is a bias plus the 64-term
  sum of its aggregated row, each entry scaled by the node's reciprocal count, against the node weights, clipped
  below at zero.  Two laws join the two programs' spellings of these: a 128-term sum is the sum of its two 64-term
  halves, and scaling by the reciprocal of a nonzero number is dividing by it — on every extended real, the
  infinities included, so neither law needs finiteness.
-/
import Idealize.ShloMosaic.Lib.ValueIdx
import Idealize.ShloMosaic.PureOps.Ideal.Laws

noncomputable section

namespace Cert.MsgPass

open Idealize.ShloMosaic Idealize.ShloMosaic.ValueIdx

/-- The pattern of the float zero, kept as a pattern: both programs clip against the same word. -/
abbrev zeroWord : EReal := Ideal.ofBits .f32 0x00000000#32

/-- The message of every edge: entry (p, j) is the clipped sum, over the 64 features q, of the source row's entry q
    times the upper weight (q, j), plus the same for the destination row and the lower weight, plus the bias j. -/
def edgeMsg {M : Nat} (s d : (⟨2, ![M, 64]⟩ : Shape).Idx → EReal) (wa wb : (⟨2, ![64, 64]⟩ : Shape).Idx → EReal)
    (b : (⟨2, ![1, 64]⟩ : Shape).Idx → EReal) : (⟨2, ![M, 64]⟩ : Shape).Idx → EReal :=
  fun i => max (((∑ q : Fin 64, s (ix2 (i 0 : Fin M) q) * wa (ix2 q (i 1 : Fin 64)))
    + ∑ q : Fin 64, d (ix2 (i 0 : Fin M) q) * wb (ix2 q (i 1 : Fin 64))) + b (ix2 (0 : Fin 1) (i 1 : Fin 64))) zeroWord

/-- The update of every node: entry (p, j) is the clipped sum, over the 64 features q, of the aggregated entry (p, q)
    scaled by node p's factor, times the weight (q, j), plus the bias j. -/
def nodeUpd {N : Nat} (a : (⟨2, ![N, 64]⟩ : Shape).Idx → EReal) (ci : (⟨2, ![N, 1]⟩ : Shape).Idx → EReal)
    (wn : (⟨2, ![64, 64]⟩ : Shape).Idx → EReal) (bn : (⟨2, ![1, 64]⟩ : Shape).Idx → EReal) :
    (⟨2, ![N, 64]⟩ : Shape).Idx → EReal :=
  fun i => max ((∑ q : Fin 64, (a (ix2 (i 0 : Fin N) q) * ci (ix2 (i 0 : Fin N) (0 : Fin 1))) * wn (ix2 q (i 1 : Fin 64)))
    + bn (ix2 (0 : Fin 1) (i 1 : Fin 64))) zeroWord

theorem edgeMsg_ix2 {M : Nat} (s d : (⟨2, ![M, 64]⟩ : Shape).Idx → EReal) (wa wb : (⟨2, ![64, 64]⟩ : Shape).Idx → EReal)
    (b : (⟨2, ![1, 64]⟩ : Shape).Idx → EReal) (p : Fin M) (j : Fin 64) :
    edgeMsg s d wa wb b (ix2 p j) = max (((∑ q : Fin 64, s (ix2 p q) * wa (ix2 q j))
      + ∑ q : Fin 64, d (ix2 p q) * wb (ix2 q j)) + b (ix2 (0 : Fin 1) j)) zeroWord := rfl

theorem nodeUpd_ix2 {N : Nat} (a : (⟨2, ![N, 64]⟩ : Shape).Idx → EReal) (ci : (⟨2, ![N, 1]⟩ : Shape).Idx → EReal)
    (wn : (⟨2, ![64, 64]⟩ : Shape).Idx → EReal) (bn : (⟨2, ![1, 64]⟩ : Shape).Idx → EReal) (p : Fin N) (j : Fin 64) :
    nodeUpd a ci wn bn (ix2 p j) = max ((∑ q : Fin 64, (a (ix2 p q) * ci (ix2 p (0 : Fin 1))) * wn (ix2 q j))
      + bn (ix2 (0 : Fin 1) j)) zeroWord := rfl

/-- A sum over 128 terms is the sum over its first 64 plus the sum over its last 64. -/
theorem sum_halves (f : Fin (64 + 64) → EReal) :
    ∑ k : Fin (64 + 64), f k = (∑ q : Fin 64, f (Fin.castAdd 64 q)) + ∑ q : Fin 64, f (Fin.natAdd 64 q) :=
  Fin.sum_univ_add f

/-- The float one denotes the number one. -/
theorem one_word : Ideal.ofBits .f32 0x3F800000#32 = 1 := by
  simp [Ideal.ofBits, Ideal.ieee, -EReal.coe_mul]; norm_num

/-- Scaling by the quotient of one by a nonzero number is dividing by that number: off zero the quotient is the
    product with the inverse, and one times the inverse is the inverse. -/
theorem mul_one_div (x y : EReal) (hy : y ≠ 0) : x * Ideal.div 1 y = Ideal.div x y := by
  unfold Ideal.div
  rw [if_neg hy, if_neg hy, one_mul]

/-- A count clipped below at one is not zero. -/
theorem max_one_ne_zero (x : EReal) : max x 1 ≠ 0 := by
  intro h
  have h1 : (1 : EReal) ≤ max x 1 := le_max_right x 1
  rw [h] at h1
  exact absurd h1 (by norm_num)

end Cert.MsgPass

end
-- ==== Proof.KLayer.lean ====
/-
  One layer, as the idealized kernel program computes it on whole arrays.

  The program gathers the source and destination rows of every edge (negative indices first wrapped by the number of
  nodes), forms every edge's message from them against the two halves of the edge weights, adds the messages of the
  edges arriving at each node, scales a node's sum by the reciprocal of its arrival count clipped below at one, and
  updates the node.  The gather and the scatter-add are the host's operations and stay opaque here: the reference
  applies the same two to the same index columns.
-/
import proofs.«124464_j89799176224972_1_alg».proof.KernelIdeal
import proofs.«124464_j89799176224972_1_alg».proof.Proof.Spec

noncomputable section

namespace Cert.MsgPass.K

open Idealize.ShloMosaic Cert.KernelIdeal Cert.MsgPass

variable [Cert.KernelIdeal.Facts₀]
open Cert.KernelIdeal.Facts₀

/-- An index vector as a column, negative entries wrapped by the number of nodes. -/
def wrapCol (ix : (⟨S800000, .i32⟩ : BufTy).Contents (Elt Ideal)) : (⟨S800000x1, .i32⟩ : BufTy).Contents (Elt Ideal) :=
  broadcastInDim S800000x1 ![0] bcast_S800000_S800000x1_0
    (select (cmpi .slt ix (broadcastInDim S800000 ![] bcast_S_S800000 (constantI S_ 32 0#32)))
      (addi ix (broadcastInDim S800000 ![] bcast_S_S800000 (constantI S_ 32 50000#32))) ix)

/-- An index vector as a column, as it is. -/
def rawCol (ix : (⟨S800000, .i32⟩ : BufTy).Contents (Elt Ideal)) : (⟨S800000x1, .i32⟩ : BufTy).Contents (Elt Ideal) :=
  broadcastInDim S800000x1 ![0] bcast_S800000_S800000x1_0 ix

/-- Every node's arrival count — a one added per arriving edge — clipped below at one. -/
def counts (dst : (⟨S800000, .i32⟩ : BufTy).Contents (Elt Ideal)) : (⟨S50000, .f32⟩ : BufTy).Contents (Elt Ideal) :=
  maximumf (F := Ideal) (φ := .f32)
    (Host.scatterAdd (F := Ideal) (φ := .f32) scatter_S50000_S800000x1_S800000_n_0_0_1
      (broadcastInDim S50000 ![] bcast_S_S50000 (constant (F := Ideal) S_ .f32 0x00000000#32))
      (rawCol dst)
      (broadcastInDim S800000 ![] bcast_S_S800000 (constant (F := Ideal) S_ .f32 0x3F800000#32)))
    (broadcastInDim S50000 ![] bcast_S_S50000 (constant (F := Ideal) S_ .f32 0x3F800000#32))

/-- The column of reciprocal counts the node calls read. -/
def recipCol (dst : (⟨S800000, .i32⟩ : BufTy).Contents (Elt Ideal)) : (⟨S50000x1, .f32⟩ : BufTy).Contents (Elt Ideal) :=
  shapeCast S50000x1
    (Host.divf (F := Ideal) (φ := .f32) (broadcastInDim S50000 ![] bcast_S_S50000 (constant (F := Ideal) S_ .f32 0x3F800000#32)) (counts dst))
    shapeCasts_S50000_S50000x1

/-- The messages of all edges from the node features x. -/
def messages (x : (⟨S50000x64, .f32⟩ : BufTy).Contents (Elt Ideal)) (src dst : (⟨S800000, .i32⟩ : BufTy).Contents (Elt Ideal))
    (We : (⟨S128x64, .f32⟩ : BufTy).Contents (Elt Ideal)) (be : (⟨S64, .f32⟩ : BufTy).Contents (Elt Ideal)) :
    (⟨S800000x64, .f32⟩ : BufTy).Contents (Elt Ideal) :=
  edgeMsg (M := 800000)
    (Host.gather gather_S50000x64_S800000x1_S800000x64_1_0_n_n_0_1_164 x (wrapCol src))
    (Host.gather gather_S50000x64_S800000x1_S800000x64_1_0_n_n_0_1_164 x (wrapCol dst))
    (truncf (F := Ideal) .bf16 (extractStridedSlice S64x64 ![0, 0] We slices_S128x64_S64x64_0_0) bitsLt_bf16_f32)
    (truncf (F := Ideal) .bf16 (extractStridedSlice S64x64 ![64, 0] We slices_S128x64_S64x64_64_0) bitsLt_bf16_f32)
    (shapeCast S1x64 be shapeCasts_S64_S1x64)

/-- The messages added up per destination node. -/
def aggregate (dst : (⟨S800000, .i32⟩ : BufTy).Contents (Elt Ideal)) (msg : (⟨S800000x64, .f32⟩ : BufTy).Contents (Elt Ideal)) :
    (⟨S50000x64, .f32⟩ : BufTy).Contents (Elt Ideal) :=
  Host.scatterAdd (F := Ideal) (φ := .f32) scatter_S50000x64_S800000x1_S800000x64_1_0_0_1
    (broadcastInDim S50000x64 ![] bcast_S_S50000x64 (constant (F := Ideal) S_ .f32 0x00000000#32)) (rawCol dst) msg

/-- One layer of the kernel program. -/
def layer (x : (⟨S50000x64, .f32⟩ : BufTy).Contents (Elt Ideal)) (src dst : (⟨S800000, .i32⟩ : BufTy).Contents (Elt Ideal))
    (We : (⟨S128x64, .f32⟩ : BufTy).Contents (Elt Ideal)) (be : (⟨S64, .f32⟩ : BufTy).Contents (Elt Ideal))
    (Wn : (⟨S64x64, .f32⟩ : BufTy).Contents (Elt Ideal)) (bn : (⟨S64, .f32⟩ : BufTy).Contents (Elt Ideal)) :
    (⟨S50000x64, .f32⟩ : BufTy).Contents (Elt Ideal) :=
  nodeUpd (N := 50000) (aggregate dst (messages x src dst We be)) (recipCol dst)
    (truncf (F := Ideal) .bf16 Wn bitsLt_bf16_f32) (shapeCast S1x64 bn shapeCasts_S64_S1x64)

end Cert.MsgPass.K

end
-- ==== Proof.Blocks.lean ====
/-
  Blocks of rows.

  Both kernels cut their long arrays into blocks of consecutive rows and keep the small operands (weights, bias)
  whole.  An entry of the message, or of the update, depends on one row of each long operand and on the small
  operands; so computing on a block whose rows are rows of the arrays gives that block of the array-wide result.
  Stated over plain functions: the caller says which array row each block row is.
-/
import proofs.«124464_j89799176224972_1_alg».proof.Proof.Spec

noncomputable section

namespace Cert.MsgPass

open Idealize.ShloMosaic Idealize.ShloMosaic.ValueIdx

/-- The edge message of blocks (bs, bd) whose row y 0 is row i 0 of the arrays (s, d), with the same small operands,
    at column y 1 = i 1, is the arrays' message at i. -/
theorem edgeMsg_block {M B : Nat} (s d : (⟨2, ![M, 64]⟩ : Shape).Idx → EReal) (wa wb : (⟨2, ![64, 64]⟩ : Shape).Idx → EReal)
    (b : (⟨2, ![1, 64]⟩ : Shape).Idx → EReal) (bs bd : (⟨2, ![B, 64]⟩ : Shape).Idx → EReal)
    (bwa bwb : (⟨2, ![64, 64]⟩ : Shape).Idx → EReal) (bb : (⟨2, ![1, 64]⟩ : Shape).Idx → EReal)
    (y : (⟨2, ![B, 64]⟩ : Shape).Idx) (i : (⟨2, ![M, 64]⟩ : Shape).Idx)
    (hs : ∀ q : Fin 64, bs (ix2 (y 0 : Fin B) q) = s (ix2 (i 0 : Fin M) q))
    (hd : ∀ q : Fin 64, bd (ix2 (y 0 : Fin B) q) = d (ix2 (i 0 : Fin M) q))
    (hwa : bwa = wa) (hwb : bwb = wb) (hb : bb = b) (hj : (y 1 : Fin 64) = (i 1 : Fin 64)) :
    edgeMsg bs bd bwa bwb bb y = edgeMsg s d wa wb b i := by
  subst hwa hwb hb
  unfold edgeMsg
  simp only [hs, hd, hj]

/-- The node update of blocks (ba, bci) whose row y 0 is row i 0 of the arrays (a, ci), with the same small operands,
    at column y 1 = i 1, is the arrays' update at i. -/
theorem nodeUpd_block {N B : Nat} (a : (⟨2, ![N, 64]⟩ : Shape).Idx → EReal) (ci : (⟨2, ![N, 1]⟩ : Shape).Idx → EReal)
    (wn : (⟨2, ![64, 64]⟩ : Shape).Idx → EReal) (bn : (⟨2, ![1, 64]⟩ : Shape).Idx → EReal)
    (ba : (⟨2, ![B, 64]⟩ : Shape).Idx → EReal) (bci : (⟨2, ![B, 1]⟩ : Shape).Idx → EReal)
    (bwn : (⟨2, ![64, 64]⟩ : Shape).Idx → EReal) (bbn : (⟨2, ![1, 64]⟩ : Shape).Idx → EReal)
    (y : (⟨2, ![B, 64]⟩ : Shape).Idx) (i : (⟨2, ![N, 64]⟩ : Shape).Idx)
    (ha : ∀ q : Fin 64, ba (ix2 (y 0 : Fin B) q) = a (ix2 (i 0 : Fin N) q))
    (hci : bci (ix2 (y 0 : Fin B) (0 : Fin 1)) = ci (ix2 (i 0 : Fin N) (0 : Fin 1)))
    (hwn : bwn = wn) (hbn : bbn = bn) (hj : (y 1 : Fin 64) = (i 1 : Fin 64)) :
    nodeUpd ba bci bwn bbn y = nodeUpd a ci wn bn i := by
  subst hwn hbn
  unfold nodeUpd
  simp only [ha, hci, hj]

end Cert.MsgPass

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.EdgeBody.lean ====
/-
  The edge kernel's block, entry by entry.

  One grid point of the edge kernel holds 8000 edges.  What it stores at entry (p, j) of its block is the clipped
  sum of two 64-term products — the source block's row p against the first weight block's column j, the destination
  block's row p against the second's — and the bias row's entry j: the layer's edge message of the blocks.  The
  narrowing of the operands to bfloat16 changes nothing on the extended reals, and each product into a zero
  accumulator is a plain sum over the contracted axis.  The two layers run two copies of this kernel.
-/
import proofs.«124464_j89799176224972_1_alg».proof.Proof.Gen.KernelIdeal.Skeleton
import proofs.«124464_j89799176224972_1_alg».proof.Proof.Spec
import proofs.«124464_j89799176224972_1_alg».proof.Proof.LibPlainDot
import proofs.«124464_j89799176224972_1_alg».proof.Proof.LibRowBroadcast
import Idealize.ShloMosaic.Lib.Pipeline.Value
import Idealize.ShloMosaic.Lib.ValueIdx

noncomputable section

namespace Cert.MsgPass

open Idealize.ShloMosaic Idealize.ShloMosaic.ValueIdx Cert.KernelIdeal Cert.KernelIdeal.Gen

/-- The first layer's edge block at entry (p, j). -/
theorem k0_pay1_ix2 (x0 x1 : Vec Ideal S8000x64 .f32) (x2 x3 : Vec Ideal S64x64 .bf16) (x4 : Vec Ideal S1x64 .f32)
    (p : Fin 8000) (j : Fin 64) :
    k0_pay1 (F := Ideal) x0 x1 x2 x3 x4 (ix2 p j) = edgeMsg (M := 8000) x0 x1 x2 x3 x4 (ix2 p j) := by
  rw [edgeMsg_ix2]
  unfold k0_pay1
  simp only [shapeCast_self]
  rw [maximumf_apply, addf_apply, addf_apply, PlainDot.matmul_zero_ix2 dot_S8000x64_S64x64_S8000x64_1_0_0_1_n_n rfl,
    PlainDot.matmul_zero_ix2 dot_S8000x64_S64x64_S8000x64_1_0_0_1_n_n rfl,
    LibRowBroadcast.broadcastTo_1b_ab_apply]
  rfl

/-- The first layer's edge block is the edge message of its input blocks. -/
theorem k0_pay1_eq (x0 x1 : Vec Ideal S8000x64 .f32) (x2 x3 : Vec Ideal S64x64 .bf16) (x4 : Vec Ideal S1x64 .f32) :
    k0_pay1 (F := Ideal) x0 x1 x2 x3 x4 = edgeMsg (M := 8000) x0 x1 x2 x3 x4 := by
  funext i
  obtain ⟨p, j, rfl⟩ : ∃ (p : Fin 8000) (j : Fin 64), i = ix2 p j := ⟨i 0, i 1, eq_ix2 i⟩
  exact k0_pay1_ix2 x0 x1 x2 x3 x4 p j

/-- The second layer's edge block at entry (p, j). -/
theorem k2_pay1_ix2 (x0 x1 : Vec Ideal S8000x64 .f32) (x2 x3 : Vec Ideal S64x64 .bf16) (x4 : Vec Ideal S1x64 .f32)
    (p : Fin 8000) (j : Fin 64) :
    k2_pay1 (F := Ideal) x0 x1 x2 x3 x4 (ix2 p j) = edgeMsg (M := 8000) x0 x1 x2 x3 x4 (ix2 p j) := by
  rw [edgeMsg_ix2]
  unfold k2_pay1
  simp only [shapeCast_self]
  rw [maximumf_apply, addf_apply, addf_apply, PlainDot.matmul_zero_ix2 dot_S8000x64_S64x64_S8000x64_1_0_0_1_n_n rfl,
    PlainDot.matmul_zero_ix2 dot_S8000x64_S64x64_S8000x64_1_0_0_1_n_n rfl,
    LibRowBroadcast.broadcastTo_1b_ab_apply]
  rfl

/-- The second layer's edge block is the edge message of its input blocks. -/
theorem k2_pay1_eq (x0 x1 : Vec Ideal S8000x64 .f32) (x2 x3 : Vec Ideal S64x64 .bf16) (x4 : Vec Ideal S1x64 .f32) :
    k2_pay1 (F := Ideal) x0 x1 x2 x3 x4 = edgeMsg (M := 8000) x0 x1 x2 x3 x4 := by
  funext i
  obtain ⟨p, j, rfl⟩ : ∃ (p : Fin 8000) (j : Fin 64), i = ix2 p j := ⟨i 0, i 1, eq_ix2 i⟩
  exact k2_pay1_ix2 x0 x1 x2 x3 x4 p j

end Cert.MsgPass

end
-- ==== Proof.EdgeCall0.lean ====
/-
  The first layer's edge call: from blocks to the whole array.

  The call walks 100 grid points; point t fetches rows [8000 t, 8000 t + 8000) of the two gathered feature arrays and
  the whole weight halves and bias row, and writes back the same rows of its output.  What it writes back is the
  block's edge message, which is that block of the array-wide edge message, because an edge's message depends on
  that edge's rows alone.  The 100 blocks tile the 800000 rows, so the output array ends holding the array-wide edge
  message of the arrays the call found.
-/
import proofs.«124464_j89799176224972_1_alg».proof.Proof.Gen.KernelIdeal.Frame
import proofs.«124464_j89799176224972_1_alg».proof.Proof.Spec
import proofs.«124464_j89799176224972_1_alg».proof.Proof.Blocks
import proofs.«124464_j89799176224972_1_alg».proof.Proof.EdgeBody
import Idealize.ShloMosaic.Lib.Pipeline.Value
import Idealize.ShloMosaic.Lib.ValueIdx

noncomputable section

set_option maxRecDepth 16384

namespace Cert.MsgPass.Edge0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MsgPass

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row-blocked windows sit at block row t, everything else at the
    origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the array-wide edge message of the arrays the call found. -/
theorem flushed_eq (c : Dev nD) (t : Fin cfg0.N) :
    (dat0 V c).flushed 5 t = ((cfg0.win 5).blk t).view.read (Elt Ideal)
      (edgeMsg (M := 800000) (V c main_v15) (V c main_v22) (V c main_v24) (V c main_v26) (V c main_v27)) := by
  show (cfg0.win 5).cut (grid0.coords t) ((dat0 V c).after 5 t) = _
  rw [after0_5]
  unfold out0_5
  rw [View.canon_unit_zero origin]
  simp only [View.ld_unit_zero (S := S8000x64) origin, View.ld_unit_zero (S := S64x64) origin,
    View.ld_unit_zero (S := S1x64) origin]
  rw [k0_pay1_eq]
  obtain ⟨e00, e01, e10, e11, e20, e21, e30, e31, e40, e41, e50, e51⟩ := idx_facts t
  funext y
  have hy0 : (y 0).val < 8000 := (y 0).isLt
  have hy1 : (y 1).val < 64 := (y 1).isLt
  refine edgeMsg_block (M := 800000) (B := 8000) (V c main_v15) (V c main_v22) (V c main_v24) (V c main_v26) (V c main_v27)
    (iblk0 V c 0 t) (iblk0 V c 1 t) (iblk0 V c 2 t) (iblk0 V c 3 t) (iblk0 V c 4 t) y
    (((cfg0.win 5).blk t).view.emb y) ?_ ?_ ?_ ?_ ?_ ?_
  · intro q
    show V c main_v15 (((cfg0.win 0).blk t).view.emb (ix2 (y 0 : Fin 8000) q)) = V c main_v15 _
    refine congrArg (V c main_v15) (funext fun a => Fin.ext ?_)
    match a with
    | ⟨0, _⟩ => show win0_0.index t (0 : Fin 2) * 8000 + 1 * (y 0).val = win0_5.index t (0 : Fin 2) * 8000 + 1 * (y 0).val; omega
    | ⟨1, _⟩ => show win0_0.index t (1 : Fin 2) * 64 + 1 * q.val = q.val; omega
  · intro q
    show V c main_v22 (((cfg0.win 1).blk t).view.emb (ix2 (y 0 : Fin 8000) q)) = V c main_v22 _
    refine congrArg (V c main_v22) (funext fun a => Fin.ext ?_)
    match a with
    | ⟨0, _⟩ => show win0_1.index t (0 : Fin 2) * 8000 + 1 * (y 0).val = win0_5.index t (0 : Fin 2) * 8000 + 1 * (y 0).val; omega
    | ⟨1, _⟩ => show win0_1.index t (1 : Fin 2) * 64 + 1 * q.val = q.val; omega
  · funext z
    show V c main_v24 (((cfg0.win 2).blk t).view.emb z) = V c main_v24 z
    refine congrArg (V c main_v24) (funext fun a => Fin.ext ?_)
    match a with
    | ⟨0, _⟩ => show win0_2.index t (0 : Fin 2) * 64 + 1 * (z 0).val = (z 0).val; omega
    | ⟨1, _⟩ => show win0_2.index t (1 : Fin 2) * 64 + 1 * (z 1).val = (z 1).val; omega
  · funext z
    show V c main_v26 (((cfg0.win 3).blk t).view.emb z) = V c main_v26 z
    refine congrArg (V c main_v26) (funext fun a => Fin.ext ?_)
    match a with
    | ⟨0, _⟩ => show win0_3.index t (0 : Fin 2) * 64 + 1 * (z 0).val = (z 0).val; omega
    | ⟨1, _⟩ => show win0_3.index t (1 : Fin 2) * 64 + 1 * (z 1).val = (z 1).val; omega
  · funext z
    show V c main_v27 (((cfg0.win 4).blk t).view.emb z) = V c main_v27 z
    refine congrArg (V c main_v27) (funext fun a => Fin.ext ?_)
    match a with
    | ⟨0, _⟩ => show win0_4.index t (0 : Fin 2) * 1 + 1 * (z 0).val = (z 0).val; omega
    | ⟨1, _⟩ => show win0_4.index t (1 : Fin 2) * 64 + 1 * (z 1).val = (z 1).val; omega
  · refine Fin.ext ?_
    show (y 1).val = win0_5.index t (1 : Fin 2) * 64 + 1 * (y 1).val
    omega

/-- An index of the output array is in point t's block iff each coordinate is in the block's range on its axis. -/
theorem mem_blk (t : Fin cfg0.N) (i : S800000x64.Idx) :
    i ∈ ((cfg0.win 5).blk t).view.set ↔ ∀ a : Fin 2, win0_5.index t a * S8000x64.size a ≤ (i a).val
      ∧ (i a).val < win0_5.index t a * S8000x64.size a + S8000x64.size a := by
  show i ∈ ((View.whole main_v28).slice (win0_5.rect t)).set ↔ _
  rw [View.set_slice_whole, Rect.mem_set_unit]
  exact Iff.rfl

/-- Row r of the output lies in the block of point r / 8000. -/
theorem cover (i : S800000x64.Idx) :
    ∃ t : Fin cfg0.N, (cfg0.win 5).flush t = true ∧ i ∈ ((cfg0.win 5).blk t).view.set := by
  have hi0 : (i 0).val < 800000 := (i 0).isLt
  have hi1 : (i 1).val < 64 := (i 1).isLt
  have hN : grid0.N = 100 := N_0
  have ht : (i 0).val / 8000 < grid0.N := by rw [hN]; omega
  obtain ⟨e00, e01, e10, e11, e20, e21, e30, e31, e40, e41, e50, e51⟩ := idx_facts ⟨(i 0).val / 8000, ht⟩
  refine ⟨⟨(i 0).val / 8000, ht⟩, flush0_5 _, ?_⟩
  rw [mem_blk]
  intro a
  match a with
  | ⟨0, _⟩ =>
    show win0_5.index ⟨(i 0).val / 8000, ht⟩ (0 : Fin 2) * 8000 ≤ (i 0).val
      ∧ (i 0).val < win0_5.index ⟨(i 0).val / 8000, ht⟩ (0 : Fin 2) * 8000 + 8000
    rw [e50]
    show (i 0).val / 8000 * 8000 ≤ (i 0).val ∧ (i 0).val < (i 0).val / 8000 * 8000 + 8000
    omega
  | ⟨1, _⟩ =>
    show win0_5.index ⟨(i 0).val / 8000, ht⟩ (1 : Fin 2) * 64 ≤ (i 1).val
      ∧ (i 1).val < win0_5.index ⟨(i 0).val / 8000, ht⟩ (1 : Fin 2) * 64 + 64
    rw [e51]
    omega

/-- The call's output array after the call: the array-wide edge message of the arrays it found. -/
theorem final (c : Dev nD) :
    (dat0 V c).arrAt 5 cfg0.N = edgeMsg (M := 800000) (V c main_v15) (V c main_v22) (V c main_v24) (V c main_v26) (V c main_v27) :=
  (dat0 V c).arrAt_eq_of_cover 5 _ (fun t _ => flushed_eq V c t) cover

end Cert.MsgPass.Edge0

end
-- ==== Proof.LibColBroadcast.lean ====
/-
  A column `[a, 1]` broadcast along the rows of `[a, b]`, read at an index written by coordinates: entry (i, j) of the
  result is the column's entry i.  General lemma: any element type, any extents.
-/
import Idealize.ShloMosaic.Lib.Pipeline.Value
import Idealize.ShloMosaic.Lib.ValueIdx

namespace Cert.LibColBroadcast

open Idealize.ShloMosaic Idealize.ShloMosaic.ValueIdx

/-- A column `[a, 1]` broadcast along the rows of `[a, b]` reads, at `(i, j)`, the column's entry `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColBroadcast
-- ==== Proof.NodeBody.lean ====
/-
  The node kernel's block, entry by entry.

  One grid point of the node kernel holds 5000 nodes.  What it stores at entry (p, j) of its block is the clipped sum
  of a 64-term product — row p of the aggregated block, every entry scaled by node p's factor (a column broadcast
  along the row), against the weight block's column j — and the bias row's entry j: the layer's node update of the
  blocks.  The two layers run two copies of this kernel.
-/
import proofs.«124464_j89799176224972_1_alg».proof.Proof.Gen.KernelIdeal.Skeleton
import proofs.«124464_j89799176224972_1_alg».proof.Proof.Spec
import proofs.«124464_j89799176224972_1_alg».proof.Proof.LibPlainDot
import proofs.«124464_j89799176224972_1_alg».proof.Proof.LibRowBroadcast
import proofs.«124464_j89799176224972_1_alg».proof.Proof.LibColBroadcast
import Idealize.ShloMosaic.Lib.Pipeline.Value
import Idealize.ShloMosaic.Lib.ValueIdx

noncomputable section

namespace Cert.MsgPass

open Idealize.ShloMosaic Idealize.ShloMosaic.ValueIdx Cert.KernelIdeal Cert.KernelIdeal.Gen

/-- The first layer's node block at entry (p, j). -/
theorem k1_pay1_ix2 (x0 : Vec Ideal S5000x64 .f32) (x1 : Vec Ideal S5000x1 .f32) (x2 : Vec Ideal S64x64 .bf16)
    (x3 : Vec Ideal S1x64 .f32) (p : Fin 5000) (j : Fin 64) :
    k1_pay1 (F := Ideal) x0 x1 x2 x3 (ix2 p j) = nodeUpd (N := 5000) x0 x1 x2 x3 (ix2 p j) := by
  rw [nodeUpd_ix2]
  unfold k1_pay1
  simp only [shapeCast_self]
  rw [maximumf_apply, addf_apply, PlainDot.matmul_zero_ix2 dot_S5000x64_S64x64_S5000x64_1_0_0_1_n_n rfl, LibRowBroadcast.broadcastTo_1b_ab_apply]
  simp only [truncf_apply, mulf_apply, LibColBroadcast.broadcastTo_a1_ab_apply]
  rfl

/-- The first layer's node block is the node update of its input blocks. -/
theorem k1_pay1_eq (x0 : Vec Ideal S5000x64 .f32) (x1 : Vec Ideal S5000x1 .f32) (x2 : Vec Ideal S64x64 .bf16)
    (x3 : Vec Ideal S1x64 .f32) : k1_pay1 (F := Ideal) x0 x1 x2 x3 = nodeUpd (N := 5000) x0 x1 x2 x3 := by
  funext i
  obtain ⟨p, j, rfl⟩ : ∃ (p : Fin 5000) (j : Fin 64), i = ix2 p j := ⟨i 0, i 1, eq_ix2 i⟩
  exact k1_pay1_ix2 x0 x1 x2 x3 p j

/-- The second layer's node block at entry (p, j). -/
theorem k3_pay1_ix2 (x0 : Vec Ideal S5000x64 .f32) (x1 : Vec Ideal S5000x1 .f32) (x2 : Vec Ideal S64x64 .bf16)
    (x3 : Vec Ideal S1x64 .f32) (p : Fin 5000) (j : Fin 64) :
    k3_pay1 (F := Ideal) x0 x1 x2 x3 (ix2 p j) = nodeUpd (N := 5000) x0 x1 x2 x3 (ix2 p j) := by
  rw [nodeUpd_ix2]
  unfold k3_pay1
  simp only [shapeCast_self]
  rw [maximumf_apply, addf_apply, PlainDot.matmul_zero_ix2 dot_S5000x64_S64x64_S5000x64_1_0_0_1_n_n rfl, LibRowBroadcast.broadcastTo_1b_ab_apply]
  simp only [truncf_apply, mulf_apply, LibColBroadcast.broadcastTo_a1_ab_apply]
  rfl

/-- The second layer's node block is the node update of its input blocks. -/
theorem k3_pay1_eq (x0 : Vec Ideal S5000x64 .f32) (x1 : Vec Ideal S5000x1 .f32) (x2 : Vec Ideal S64x64 .bf16)
    (x3 : Vec Ideal S1x64 .f32) : k3_pay1 (F := Ideal) x0 x1 x2 x3 = nodeUpd (N := 5000) x0 x1 x2 x3 := by
  funext i
  obtain ⟨p, j, rfl⟩ : ∃ (p : Fin 5000) (j : Fin 64), i = ix2 p j := ⟨i 0, i 1, eq_ix2 i⟩
  exact k3_pay1_ix2 x0 x1 x2 x3 p j

end Cert.MsgPass

end
-- ==== Proof.NodeCall1.lean ====
/-
  The first layer's node call: from blocks to the whole array.

  The call walks 10 grid points; point t fetches rows [5000 t, 5000 t + 5000) of the aggregated messages and of the
  column of per-node factors, and the whole node weights and bias row, and writes back the same rows of its output.
  What it writes back is the block's node update, which is that block of the array-wide node update, because a node's
  new row depends on that node's rows alone.  The 10 blocks tile the 50000 rows, so the output array ends holding the
  array-wide node update of the arrays the call found.
-/
import proofs.«124464_j89799176224972_1_alg».proof.Proof.Gen.KernelIdeal.Frame
import proofs.«124464_j89799176224972_1_alg».proof.Proof.Spec
import proofs.«124464_j89799176224972_1_alg».proof.Proof.Blocks
import proofs.«124464_j89799176224972_1_alg».proof.Proof.NodeBody
import Idealize.ShloMosaic.Lib.Pipeline.Value
import Idealize.ShloMosaic.Lib.ValueIdx

noncomputable section

set_option maxRecDepth 16384

namespace Cert.MsgPass.Node1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MsgPass

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row-blocked windows sit at block row t, everything else at the
    origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the array-wide node update of the arrays the call found. -/
theorem flushed_eq (c : Dev nD) (t : Fin cfg1.N) :
    (dat1 V c).flushed 4 t = ((cfg1.win 4).blk t).view.read (Elt Ideal)
      (nodeUpd (N := 50000) (V c main_v31) (V c main_v8) (V c main_v32) (V c main_v33)) := by
  show (cfg1.win 4).cut (grid1.coords t) ((dat1 V c).after 4 t) = _
  rw [after1_4]
  unfold out1_4
  rw [View.canon_unit_zero origin]
  simp only [View.ld_unit_zero (S := S5000x64) origin, View.ld_unit_zero (S := S5000x1) origin,
    View.ld_unit_zero (S := S64x64) origin, View.ld_unit_zero (S := S1x64) origin]
  rw [k1_pay1_eq]
  obtain ⟨e00, e01, e10, e11, e20, e21, e30, e31, e40, e41⟩ := idx_facts t
  funext y
  have hy0 : (y 0).val < 5000 := (y 0).isLt
  have hy1 : (y 1).val < 64 := (y 1).isLt
  refine nodeUpd_block (N := 50000) (B := 5000) (V c main_v31) (V c main_v8) (V c main_v32) (V c main_v33)
    (iblk1 V c 0 t) (iblk1 V c 1 t) (iblk1 V c 2 t) (iblk1 V c 3 t) y
    (((cfg1.win 4).blk t).view.emb y) ?_ ?_ ?_ ?_ ?_
  · intro q
    show V c main_v31 (((cfg1.win 0).blk t).view.emb (ix2 (y 0 : Fin 5000) q)) = V c main_v31 _
    refine congrArg (V c main_v31) (funext fun a => Fin.ext ?_)
    match a with
    | ⟨0, _⟩ => show win1_0.index t (0 : Fin 2) * 5000 + 1 * (y 0).val = win1_4.index t (0 : Fin 2) * 5000 + 1 * (y 0).val; omega
    | ⟨1, _⟩ => show win1_0.index t (1 : Fin 2) * 64 + 1 * q.val = q.val; omega
  · show V c main_v8 (((cfg1.win 1).blk t).view.emb (ix2 (y 0 : Fin 5000) (0 : Fin 1))) = V c main_v8 _
    refine congrArg (V c main_v8) (funext fun a => Fin.ext ?_)
    match a with
    | ⟨0, _⟩ => show win1_1.index t (0 : Fin 2) * 5000 + 1 * (y 0).val = win1_4.index t (0 : Fin 2) * 5000 + 1 * (y 0).val; omega
    | ⟨1, _⟩ => show win1_1.index t (1 : Fin 2) * 1 + 1 * 0 = 0; omega
  · funext z
    show V c main_v32 (((cfg1.win 2).blk t).view.emb z) = V c main_v32 z
    refine congrArg (V c main_v32) (funext fun a => Fin.ext ?_)
    match a with
    | ⟨0, _⟩ => show win1_2.index t (0 : Fin 2) * 64 + 1 * (z 0).val = (z 0).val; omega
    | ⟨1, _⟩ => show win1_2.index t (1 : Fin 2) * 64 + 1 * (z 1).val = (z 1).val; omega
  · funext z
    show V c main_v33 (((cfg1.win 3).blk t).view.emb z) = V c main_v33 z
    refine congrArg (V c main_v33) (funext fun a => Fin.ext ?_)
    match a with
    | ⟨0, _⟩ => show win1_3.index t (0 : Fin 2) * 1 + 1 * (z 0).val = (z 0).val; omega
    | ⟨1, _⟩ => show win1_3.index t (1 : Fin 2) * 64 + 1 * (z 1).val = (z 1).val; omega
  · refine Fin.ext ?_
    show (y 1).val = win1_4.index t (1 : Fin 2) * 64 + 1 * (y 1).val
    omega

/-- An index of the output array is in point t's block iff each coordinate is in the block's range on its axis. -/
theorem mem_blk (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v34).slice (win1_4.rect t)).set ↔ _
  rw [View.set_slice_whole, Rect.mem_set_unit]
  exact Iff.rfl

/-- Row r of the output lies in the block of point r / 5000. -/
theorem cover (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : grid1.N = 10 := N_1
  have ht : (i 0).val / 5000 < grid1.N := by rw [hN]; omega
  obtain ⟨e00, e01, e10, e11, e20, e21, e30, e31, e40, e41⟩ := idx_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win1_4.index ⟨(i 0).val / 5000, ht⟩ (1 : Fin 2) * 64 ≤ (i 1).val
      ∧ (i 1).val < win1_4.index ⟨(i 0).val / 5000, ht⟩ (1 : Fin 2) * 64 + 64
    rw [e41]
    omega

/-- The call's output array after the call: the array-wide node update of the arrays it found. -/
theorem final (c : Dev nD) :
    (dat1 V c).arrAt 4 cfg1.N = nodeUpd (N := 50000) (V c main_v31) (V c main_v8) (V c main_v32) (V c main_v33) :=
  (dat1 V c).arrAt_eq_of_cover 4 _ (fun t _ => flushed_eq V c t) cover

end Cert.MsgPass.Node1

end
-- ==== Proof.EdgeCall2.lean ====
/-
  The second layer's edge call: from blocks to the whole array.

  The call walks 100 grid points; point t fetches rows [8000 t, 8000 t + 8000) of the two gathered feature arrays and
  the whole weight halves and bias row, and writes back the same rows of its output.  What it writes back is the
  block's edge message, which is that block of the array-wide edge message, because an edge's message depends on
  that edge's rows alone.  The 100 blocks tile the 800000 rows, so the output array ends holding the array-wide edge
  message of the arrays the call found.
-/
import proofs.«124464_j89799176224972_1_alg».proof.Proof.Gen.KernelIdeal.Frame
import proofs.«124464_j89799176224972_1_alg».proof.Proof.Spec
import proofs.«124464_j89799176224972_1_alg».proof.Proof.Blocks
import proofs.«124464_j89799176224972_1_alg».proof.Proof.EdgeBody
import Idealize.ShloMosaic.Lib.Pipeline.Value
import Idealize.ShloMosaic.Lib.ValueIdx

noncomputable section

set_option maxRecDepth 16384

namespace Cert.MsgPass.Edge2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MsgPass

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row-blocked windows sit at block row t, everything else at the
    origin. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the array-wide edge message of the arrays the call found. -/
theorem flushed_eq (c : Dev nD) (t : Fin cfg2.N) :
    (dat2 V c).flushed 5 t = ((cfg2.win 5).blk t).view.read (Elt Ideal)
      (edgeMsg (M := 800000) (V c main_v41) (V c main_v48) (V c main_v50) (V c main_v52) (V c main_v53)) := by
  show (cfg2.win 5).cut (grid2.coords t) ((dat2 V c).after 5 t) = _
  rw [after2_5]
  unfold out2_5
  rw [View.canon_unit_zero origin]
  simp only [View.ld_unit_zero (S := S8000x64) origin, View.ld_unit_zero (S := S64x64) origin,
    View.ld_unit_zero (S := S1x64) origin]
  rw [k2_pay1_eq]
  obtain ⟨e00, e01, e10, e11, e20, e21, e30, e31, e40, e41, e50, e51⟩ := idx_facts t
  funext y
  have hy0 : (y 0).val < 8000 := (y 0).isLt
  have hy1 : (y 1).val < 64 := (y 1).isLt
  refine edgeMsg_block (M := 800000) (B := 8000) (V c main_v41) (V c main_v48) (V c main_v50) (V c main_v52) (V c main_v53)
    (iblk2 V c 0 t) (iblk2 V c 1 t) (iblk2 V c 2 t) (iblk2 V c 3 t) (iblk2 V c 4 t) y
    (((cfg2.win 5).blk t).view.emb y) ?_ ?_ ?_ ?_ ?_ ?_
  · intro q
    show V c main_v41 (((cfg2.win 0).blk t).view.emb (ix2 (y 0 : Fin 8000) q)) = V c main_v41 _
    refine congrArg (V c main_v41) (funext fun a => Fin.ext ?_)
    match a with
    | ⟨0, _⟩ => show win2_0.index t (0 : Fin 2) * 8000 + 1 * (y 0).val = win2_5.index t (0 : Fin 2) * 8000 + 1 * (y 0).val; omega
    | ⟨1, _⟩ => show win2_0.index t (1 : Fin 2) * 64 + 1 * q.val = q.val; omega
  · intro q
    show V c main_v48 (((cfg2.win 1).blk t).view.emb (ix2 (y 0 : Fin 8000) q)) = V c main_v48 _
    refine congrArg (V c main_v48) (funext fun a => Fin.ext ?_)
    match a with
    | ⟨0, _⟩ => show win2_1.index t (0 : Fin 2) * 8000 + 1 * (y 0).val = win2_5.index t (0 : Fin 2) * 8000 + 1 * (y 0).val; omega
    | ⟨1, _⟩ => show win2_1.index t (1 : Fin 2) * 64 + 1 * q.val = q.val; omega
  · funext z
    show V c main_v50 (((cfg2.win 2).blk t).view.emb z) = V c main_v50 z
    refine congrArg (V c main_v50) (funext fun a => Fin.ext ?_)
    match a with
    | ⟨0, _⟩ => show win2_2.index t (0 : Fin 2) * 64 + 1 * (z 0).val = (z 0).val; omega
    | ⟨1, _⟩ => show win2_2.index t (1 : Fin 2) * 64 + 1 * (z 1).val = (z 1).val; omega
  · funext z
    show V c main_v52 (((cfg2.win 3).blk t).view.emb z) = V c main_v52 z
    refine congrArg (V c main_v52) (funext fun a => Fin.ext ?_)
    match a with
    | ⟨0, _⟩ => show win2_3.index t (0 : Fin 2) * 64 + 1 * (z 0).val = (z 0).val; omega
    | ⟨1, _⟩ => show win2_3.index t (1 : Fin 2) * 64 + 1 * (z 1).val = (z 1).val; omega
  · funext z
    show V c main_v53 (((cfg2.win 4).blk t).view.emb z) = V c main_v53 z
    refine congrArg (V c main_v53) (funext fun a => Fin.ext ?_)
    match a with
    | ⟨0, _⟩ => show win2_4.index t (0 : Fin 2) * 1 + 1 * (z 0).val = (z 0).val; omega
    | ⟨1, _⟩ => show win2_4.index t (1 : Fin 2) * 64 + 1 * (z 1).val = (z 1).val; omega
  · refine Fin.ext ?_
    show (y 1).val = win2_5.index t (1 : Fin 2) * 64 + 1 * (y 1).val
    omega

/-- An index of the output array is in point t's block iff each coordinate is in the block's range on its axis. -/
theorem mem_blk (t : Fin cfg2.N) (i : S800000x64.Idx) :
    i ∈ ((cfg2.win 5).blk t).view.set ↔ ∀ a : Fin 2, win2_5.index t a * S8000x64.size a ≤ (i a).val
      ∧ (i a).val < win2_5.index t a * S8000x64.size a + S8000x64.size a := by
  show i ∈ ((View.whole main_v54).slice (win2_5.rect t)).set ↔ _
  rw [View.set_slice_whole, Rect.mem_set_unit]
  exact Iff.rfl

/-- Row r of the output lies in the block of point r / 8000. -/
theorem cover (i : S800000x64.Idx) :
    ∃ t : Fin cfg2.N, (cfg2.win 5).flush t = true ∧ i ∈ ((cfg2.win 5).blk t).view.set := by
  have hi0 : (i 0).val < 800000 := (i 0).isLt
  have hi1 : (i 1).val < 64 := (i 1).isLt
  have hN : grid2.N = 100 := N_2
  have ht : (i 0).val / 8000 < grid2.N := by rw [hN]; omega
  obtain ⟨e00, e01, e10, e11, e20, e21, e30, e31, e40, e41, e50, e51⟩ := idx_facts ⟨(i 0).val / 8000, ht⟩
  refine ⟨⟨(i 0).val / 8000, ht⟩, flush2_5 _, ?_⟩
  rw [mem_blk]
  intro a
  match a with
  | ⟨0, _⟩ =>
    show win2_5.index ⟨(i 0).val / 8000, ht⟩ (0 : Fin 2) * 8000 ≤ (i 0).val
      ∧ (i 0).val < win2_5.index ⟨(i 0).val / 8000, ht⟩ (0 : Fin 2) * 8000 + 8000
    rw [e50]
    show (i 0).val / 8000 * 8000 ≤ (i 0).val ∧ (i 0).val < (i 0).val / 8000 * 8000 + 8000
    omega
  | ⟨1, _⟩ =>
    show win2_5.index ⟨(i 0).val / 8000, ht⟩ (1 : Fin 2) * 64 ≤ (i 1).val
      ∧ (i 1).val < win2_5.index ⟨(i 0).val / 8000, ht⟩ (1 : Fin 2) * 64 + 64
    rw [e51]
    omega

/-- The call's output array after the call: the array-wide edge message of the arrays it found. -/
theorem final (c : Dev nD) :
    (dat2 V c).arrAt 5 cfg2.N = edgeMsg (M := 800000) (V c main_v41) (V c main_v48) (V c main_v50) (V c main_v52) (V c main_v53) :=
  (dat2 V c).arrAt_eq_of_cover 5 _ (fun t _ => flushed_eq V c t) cover

end Cert.MsgPass.Edge2

end
-- ==== Proof.NodeCall3.lean ====
/-
  The second layer's node call: from blocks to the whole array.

  The call walks 10 grid points; point t fetches rows [5000 t, 5000 t + 5000) of the aggregated messages and of the
  column of per-node factors, and the whole node weights and bias row, and writes back the same rows of its output.
  What it writes back is the block's node update, which is that block of the array-wide node update, because a node's
  new row depends on that node's rows alone.  The 10 blocks tile the 50000 rows, so the output array ends holding the
  array-wide node update of the arrays the call found.
-/
import proofs.«124464_j89799176224972_1_alg».proof.Proof.Gen.KernelIdeal.Frame
import proofs.«124464_j89799176224972_1_alg».proof.Proof.Spec
import proofs.«124464_j89799176224972_1_alg».proof.Proof.Blocks
import proofs.«124464_j89799176224972_1_alg».proof.Proof.NodeBody
import Idealize.ShloMosaic.Lib.Pipeline.Value
import Idealize.ShloMosaic.Lib.ValueIdx

noncomputable section

set_option maxRecDepth 16384

namespace Cert.MsgPass.Node3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MsgPass

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row-blocked windows sit at block row t, everything else at the
    origin. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the array-wide node update of the arrays the call found. -/
theorem flushed_eq (c : Dev nD) (t : Fin cfg3.N) :
    (dat3 V c).flushed 4 t = ((cfg3.win 4).blk t).view.read (Elt Ideal)
      (nodeUpd (N := 50000) (V c main_v57) (V c main_v8) (V c main_v58) (V c main_v59)) := by
  show (cfg3.win 4).cut (grid3.coords t) ((dat3 V c).after 4 t) = _
  rw [after3_4]
  unfold out3_4
  rw [View.canon_unit_zero origin]
  simp only [View.ld_unit_zero (S := S5000x64) origin, View.ld_unit_zero (S := S5000x1) origin,
    View.ld_unit_zero (S := S64x64) origin, View.ld_unit_zero (S := S1x64) origin]
  rw [k3_pay1_eq]
  obtain ⟨e00, e01, e10, e11, e20, e21, e30, e31, e40, e41⟩ := idx_facts t
  funext y
  have hy0 : (y 0).val < 5000 := (y 0).isLt
  have hy1 : (y 1).val < 64 := (y 1).isLt
  refine nodeUpd_block (N := 50000) (B := 5000) (V c main_v57) (V c main_v8) (V c main_v58) (V c main_v59)
    (iblk3 V c 0 t) (iblk3 V c 1 t) (iblk3 V c 2 t) (iblk3 V c 3 t) y
    (((cfg3.win 4).blk t).view.emb y) ?_ ?_ ?_ ?_ ?_
  · intro q
    show V c main_v57 (((cfg3.win 0).blk t).view.emb (ix2 (y 0 : Fin 5000) q)) = V c main_v57 _
    refine congrArg (V c main_v57) (funext fun a => Fin.ext ?_)
    match a with
    | ⟨0, _⟩ => show win3_0.index t (0 : Fin 2) * 5000 + 1 * (y 0).val = win3_4.index t (0 : Fin 2) * 5000 + 1 * (y 0).val; omega
    | ⟨1, _⟩ => show win3_0.index t (1 : Fin 2) * 64 + 1 * q.val = q.val; omega
  · show V c main_v8 (((cfg3.win 1).blk t).view.emb (ix2 (y 0 : Fin 5000) (0 : Fin 1))) = V c main_v8 _
    refine congrArg (V c main_v8) (funext fun a => Fin.ext ?_)
    match a with
    | ⟨0, _⟩ => show win3_1.index t (0 : Fin 2) * 5000 + 1 * (y 0).val = win3_4.index t (0 : Fin 2) * 5000 + 1 * (y 0).val; omega
    | ⟨1, _⟩ => show win3_1.index t (1 : Fin 2) * 1 + 1 * 0 = 0; omega
  · funext z
    show V c main_v58 (((cfg3.win 2).blk t).view.emb z) = V c main_v58 z
    refine congrArg (V c main_v58) (funext fun a => Fin.ext ?_)
    match a with
    | ⟨0, _⟩ => show win3_2.index t (0 : Fin 2) * 64 + 1 * (z 0).val = (z 0).val; omega
    | ⟨1, _⟩ => show win3_2.index t (1 : Fin 2) * 64 + 1 * (z 1).val = (z 1).val; omega
  · funext z
    show V c main_v59 (((cfg3.win 3).blk t).view.emb z) = V c main_v59 z
    refine congrArg (V c main_v59) (funext fun a => Fin.ext ?_)
    match a with
    | ⟨0, _⟩ => show win3_3.index t (0 : Fin 2) * 1 + 1 * (z 0).val = (z 0).val; omega
    | ⟨1, _⟩ => show win3_3.index t (1 : Fin 2) * 64 + 1 * (z 1).val = (z 1).val; omega
  · refine Fin.ext ?_
    show (y 1).val = win3_4.index t (1 : Fin 2) * 64 + 1 * (y 1).val
    omega

/-- An index of the output array is in point t's block iff each coordinate is in the block's range on its axis. -/
theorem mem_blk (t : Fin cfg3.N) (i : S50000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v60).slice (win3_4.rect t)).set ↔ _
  rw [View.set_slice_whole, Rect.mem_set_unit]
  exact Iff.rfl

/-- Row r of the output lies in the block of point r / 5000. -/
theorem cover (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : grid3.N = 10 := N_3
  have ht : (i 0).val / 5000 < grid3.N := by rw [hN]; omega
  obtain ⟨e00, e01, e10, e11, e20, e21, e30, e31, e40, e41⟩ := idx_facts ⟨(i 0).val / 5000, ht⟩
  refine ⟨⟨(i 0).val / 5000, ht⟩, flush3_4 _, ?_⟩
  rw [mem_blk]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win3_4.index ⟨(i 0).val / 5000, ht⟩ (1 : Fin 2) * 64 ≤ (i 1).val
      ∧ (i 1).val < win3_4.index ⟨(i 0).val / 5000, ht⟩ (1 : Fin 2) * 64 + 64
    rw [e41]
    omega

/-- The call's output array after the call: the array-wide node update of the arrays it found. -/
theorem final (c : Dev nD) :
    (dat3 V c).arrAt 4 cfg3.N = nodeUpd (N := 50000) (V c main_v57) (V c main_v8) (V c main_v58) (V c main_v59) :=
  (dat3 V c).arrAt_eq_of_cover 4 _ (fun t _ => flushed_eq V c t) cover

end Cert.MsgPass.Node3

end
-- ==== Proof.KernelValue.lean ====
/-
  The idealized kernel program's result, as two layers of the argument arrays.

  The program's buffers are followed through its eight segments.  A stretch of host operations leaves in each buffer
  it writes the operation's value of its operands, and every other buffer as it was; a kernel call leaves in its
  output array the array-wide function of the arrays it found (the four call modules), and every other buffer as it
  was.  So the argument buffers, and the column of reciprocal counts computed once at the start, are the same at every
  boundary, the first node call's output is the first layer of the arguments, and the program's result — the second
  node call's output — is the second layer of that.
-/
import proofs.«124464_j89799176224972_1_alg».proof.Proof.Gen.KernelIdeal.Frame
import proofs.«124464_j89799176224972_1_alg».proof.Proof.KLayer
import proofs.«124464_j89799176224972_1_alg».proof.Proof.EdgeCall0
import proofs.«124464_j89799176224972_1_alg».proof.Proof.NodeCall1
import proofs.«124464_j89799176224972_1_alg».proof.Proof.EdgeCall2
import proofs.«124464_j89799176224972_1_alg».proof.Proof.NodeCall3
import Idealize.ShloMosaic.Lib.StableHlo.Run

noncomputable section

set_option maxRecDepth 16384

namespace Cert.MsgPass.KernelValue

open Idealize.ShloMosaic Idealize.ShloMosaic.TcCoe Idealize.SL.Sem Idealize.ShloMosaic.StableHlo
open Cert.KernelIdeal Cert.KernelIdeal.Gen Cert.MsgPass

variable (m : (ℓ : Loc nD τ sig) → Buf (Elt Ideal) ℓ) (ρ : Dev nD → PrngReg) (c : Dev nD)

/-! ## The buffers no segment writes after the first stretch: the arguments and the reciprocal counts -/

theorem W1_arg1 : W1 m ρ c (Proc.devRef .tc main_arg1) = (m ((c : Thread nD τ).loc main_arg1)) := by
  show StableHlo.after hostOps0 (W0 m ρ c) (Proc.devRef .tc main_arg1) = _
  after_results_simp
  try rfl
theorem W1_arg2 : W1 m ρ c (Proc.devRef .tc main_arg2) = (m ((c : Thread nD τ).loc main_arg2)) := by
  show StableHlo.after hostOps0 (W0 m ρ c) (Proc.devRef .tc main_arg2) = _
  after_results_simp
  try rfl
theorem W1_arg5 : W1 m ρ c (Proc.devRef .tc main_arg5) = (m ((c : Thread nD τ).loc main_arg5)) := by
  show StableHlo.after hostOps0 (W0 m ρ c) (Proc.devRef .tc main_arg5) = _
  after_results_simp
  try rfl
theorem W1_arg6 : W1 m ρ c (Proc.devRef .tc main_arg6) = (m ((c : Thread nD τ).loc main_arg6)) := by
  show StableHlo.after hostOps0 (W0 m ρ c) (Proc.devRef .tc main_arg6) = _
  after_results_simp
  try rfl
theorem W1_arg7 : W1 m ρ c (Proc.devRef .tc main_arg7) = (m ((c : Thread nD τ).loc main_arg7)) := by
  show StableHlo.after hostOps0 (W0 m ρ c) (Proc.devRef .tc main_arg7) = _
  after_results_simp
  try rfl
theorem W1_arg8 : W1 m ρ c (Proc.devRef .tc main_arg8) = (m ((c : Thread nD τ).loc main_arg8)) := by
  show StableHlo.after hostOps0 (W0 m ρ c) (Proc.devRef .tc main_arg8) = _
  after_results_simp
  try rfl
theorem W1_arg9 : W1 m ρ c (Proc.devRef .tc main_arg9) = (m ((c : Thread nD τ).loc main_arg9)) := by
  show StableHlo.after hostOps0 (W0 m ρ c) (Proc.devRef .tc main_arg9) = _
  after_results_simp
  try rfl
theorem W1_arg10 : W1 m ρ c (Proc.devRef .tc main_arg10) = (m ((c : Thread nD τ).loc main_arg10)) := by
  show StableHlo.after hostOps0 (W0 m ρ c) (Proc.devRef .tc main_arg10) = _
  after_results_simp
  try rfl
theorem W1_v8 : W1 m ρ c (Proc.devRef .tc main_v8) = K.recipCol (m ((c : Thread nD τ).loc main_arg2)) := by
  show StableHlo.after hostOps0 (W0 m ρ c) (Proc.devRef .tc main_v8) = _
  after_results_simp
  try rfl
theorem W2_arg1 : W2 m ρ c (Proc.devRef .tc main_arg1) = (m ((c : Thread nD τ).loc main_arg1)) :=
  (W2_of_ne m ρ c main_arg1 (by decide)).trans (W1_arg1 m ρ c)
theorem W2_arg2 : W2 m ρ c (Proc.devRef .tc main_arg2) = (m ((c : Thread nD τ).loc main_arg2)) :=
  (W2_of_ne m ρ c main_arg2 (by decide)).trans (W1_arg2 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)
theorem W2_v8 : W2 m ρ c (Proc.devRef .tc main_v8) = K.recipCol (m ((c : Thread nD τ).loc main_arg2)) :=
  (W2_of_ne m ρ c main_v8 (by decide)).trans (W1_v8 m ρ c)
theorem W3_arg1 : W3 m ρ c (Proc.devRef .tc main_arg1) = (m ((c : Thread nD τ).loc main_arg1)) := by
  show StableHlo.after hostOps1 (W2 m ρ c) (Proc.devRef .tc main_arg1) = _
  after_results_simp
  rw [W2_arg1 m ρ c]
  try rfl
theorem W3_arg2 : W3 m ρ c (Proc.devRef .tc main_arg2) = (m ((c : Thread nD τ).loc main_arg2)) := by
  show StableHlo.after hostOps1 (W2 m ρ c) (Proc.devRef .tc main_arg2) = _
  after_results_simp
  rw [W2_arg2 m ρ c]
  try rfl
theorem W3_arg7 : W3 m ρ c (Proc.devRef .tc main_arg7) = (m ((c : Thread nD τ).loc main_arg7)) := by
  show StableHlo.after hostOps1 (W2 m ρ c) (Proc.devRef .tc main_arg7) = _
  after_results_simp
  rw [W2_arg7 m ρ c]
  try rfl
theorem W3_arg8 : W3 m ρ c (Proc.devRef .tc main_arg8) = (m ((c : Thread nD τ).loc main_arg8)) := by
  show StableHlo.after hostOps1 (W2 m ρ c) (Proc.devRef .tc main_arg8) = _
  after_results_simp
  rw [W2_arg8 m ρ c]
  try rfl
theorem W3_arg9 : W3 m ρ c (Proc.devRef .tc main_arg9) = (m ((c : Thread nD τ).loc main_arg9)) := by
  show StableHlo.after hostOps1 (W2 m ρ c) (Proc.devRef .tc main_arg9) = _
  after_results_simp
  rw [W2_arg9 m ρ c]
  try rfl
theorem W3_arg10 : W3 m ρ c (Proc.devRef .tc main_arg10) = (m ((c : Thread nD τ).loc main_arg10)) := by
  show StableHlo.after hostOps1 (W2 m ρ c) (Proc.devRef .tc main_arg10) = _
  after_results_simp
  rw [W2_arg10 m ρ c]
  try rfl
theorem W3_v8 : W3 m ρ c (Proc.devRef .tc main_v8) = K.recipCol (m ((c : Thread nD τ).loc main_arg2)) := by
  show StableHlo.after hostOps1 (W2 m ρ c) (Proc.devRef .tc main_v8) = _
  after_results_simp
  rw [W2_v8 m ρ c]
  try rfl
theorem W4_arg1 : W4 m ρ c (Proc.devRef .tc main_arg1) = (m ((c : Thread nD τ).loc main_arg1)) :=
  (W4_of_ne m ρ c main_arg1 (by decide)).trans (W3_arg1 m ρ c)
theorem W4_arg2 : W4 m ρ c (Proc.devRef .tc main_arg2) = (m ((c : Thread nD τ).loc main_arg2)) :=
  (W4_of_ne m ρ c main_arg2 (by decide)).trans (W3_arg2 m ρ c)
theorem W4_arg7 : W4 m ρ c (Proc.devRef .tc main_arg7) = (m ((c : Thread nD τ).loc main_arg7)) :=
  (W4_of_ne m ρ c main_arg7 (by decide)).trans (W3_arg7 m ρ c)
theorem W4_arg8 : W4 m ρ c (Proc.devRef .tc main_arg8) = (m ((c : Thread nD τ).loc main_arg8)) :=
  (W4_of_ne m ρ c main_arg8 (by decide)).trans (W3_arg8 m ρ c)
theorem W4_arg9 : W4 m ρ c (Proc.devRef .tc main_arg9) = (m ((c : Thread nD τ).loc main_arg9)) :=
  (W4_of_ne m ρ c main_arg9 (by decide)).trans (W3_arg9 m ρ c)
theorem W4_arg10 : W4 m ρ c (Proc.devRef .tc main_arg10) = (m ((c : Thread nD τ).loc main_arg10)) :=
  (W4_of_ne m ρ c main_arg10 (by decide)).trans (W3_arg10 m ρ c)
/-- The column of reciprocal counts is an input of the node call, which leaves its inputs as it found them. -/
theorem W4_v8 : W4 m ρ c (Proc.devRef .tc main_v8) = K.recipCol (m ((c : Thread nD τ).loc main_arg2)) :=
  (W4_arr m ρ c 1).trans (((dat1 (V3 m ρ) c).arrAt_in 1 rfl cfg1.N).trans ((A_eq1 (V3 m ρ) c 1).trans (W3_v8 m ρ c)))
theorem W5_arg2 : W5 m ρ c (Proc.devRef .tc main_arg2) = (m ((c : Thread nD τ).loc main_arg2)) := by
  show StableHlo.after hostOps2 (W4 m ρ c) (Proc.devRef .tc main_arg2) = _
  after_results_simp
  rw [W4_arg2 m ρ c]
  try rfl
theorem W5_arg9 : W5 m ρ c (Proc.devRef .tc main_arg9) = (m ((c : Thread nD τ).loc main_arg9)) := by
  show StableHlo.after hostOps2 (W4 m ρ c) (Proc.devRef .tc main_arg9) = _
  after_results_simp
  rw [W4_arg9 m ρ c]
  try rfl
theorem W5_arg10 : W5 m ρ c (Proc.devRef .tc main_arg10) = (m ((c : Thread nD τ).loc main_arg10)) := by
  show StableHlo.after hostOps2 (W4 m ρ c) (Proc.devRef .tc main_arg10) = _
  after_results_simp
  rw [W4_arg10 m ρ c]
  try rfl
theorem W5_v8 : W5 m ρ c (Proc.devRef .tc main_v8) = K.recipCol (m ((c : Thread nD τ).loc main_arg2)) := by
  show StableHlo.after hostOps2 (W4 m ρ c) (Proc.devRef .tc main_v8) = _
  after_results_simp
  rw [W4_v8 m ρ c]
  try rfl
theorem W6_arg2 : W6 m ρ c (Proc.devRef .tc main_arg2) = (m ((c : Thread nD τ).loc main_arg2)) :=
  (W6_of_ne m ρ c main_arg2 (by decide)).trans (W5_arg2 m ρ c)
theorem W6_arg9 : W6 m ρ c (Proc.devRef .tc main_arg9) = (m ((c : Thread nD τ).loc main_arg9)) :=
  (W6_of_ne m ρ c main_arg9 (by decide)).trans (W5_arg9 m ρ c)
theorem W6_arg10 : W6 m ρ c (Proc.devRef .tc main_arg10) = (m ((c : Thread nD τ).loc main_arg10)) :=
  (W6_of_ne m ρ c main_arg10 (by decide)).trans (W5_arg10 m ρ c)
theorem W6_v8 : W6 m ρ c (Proc.devRef .tc main_v8) = K.recipCol (m ((c : Thread nD τ).loc main_arg2)) :=
  (W6_of_ne m ρ c main_v8 (by decide)).trans (W5_v8 m ρ c)
theorem W7_v8 : W7 m ρ c (Proc.devRef .tc main_v8) = K.recipCol (m ((c : Thread nD τ).loc main_arg2)) := by
  show StableHlo.after hostOps3 (W6 m ρ c) (Proc.devRef .tc main_v8) = _
  after_results_simp
  rw [W6_v8 m ρ c]
  try rfl

/-! ## The first layer -/

theorem W1_v15 : W1 m ρ c (Proc.devRef .tc main_v15) = Host.gather gather_S50000x64_S800000x1_S800000x64_1_0_n_n_0_1_164 (m ((c : Thread nD τ).loc main_arg0)) (K.wrapCol (m ((c : Thread nD τ).loc main_arg1))) := by
  show StableHlo.after hostOps0 (W0 m ρ c) (Proc.devRef .tc main_v15) = _
  after_results_simp
  try rfl
theorem W1_v22 : W1 m ρ c (Proc.devRef .tc main_v22) = Host.gather gather_S50000x64_S800000x1_S800000x64_1_0_n_n_0_1_164 (m ((c : Thread nD τ).loc main_arg0)) (K.wrapCol (m ((c : Thread nD τ).loc main_arg2))) := by
  show StableHlo.after hostOps0 (W0 m ρ c) (Proc.devRef .tc main_v22) = _
  after_results_simp
  try rfl
theorem W1_v24 : W1 m ρ c (Proc.devRef .tc main_v24) = truncf (F := Ideal) .bf16 (extractStridedSlice S64x64 ![0, 0] (m ((c : Thread nD τ).loc main_arg3)) slices_S128x64_S64x64_0_0) bitsLt_bf16_f32 := by
  show StableHlo.after hostOps0 (W0 m ρ c) (Proc.devRef .tc main_v24) = _
  after_results_simp
  try rfl
theorem W1_v26 : W1 m ρ c (Proc.devRef .tc main_v26) = truncf (F := Ideal) .bf16 (extractStridedSlice S64x64 ![64, 0] (m ((c : Thread nD τ).loc main_arg3)) slices_S128x64_S64x64_64_0) bitsLt_bf16_f32 := by
  show StableHlo.after hostOps0 (W0 m ρ c) (Proc.devRef .tc main_v26) = _
  after_results_simp
  try rfl
theorem W1_v27 : W1 m ρ c (Proc.devRef .tc main_v27) = shapeCast S1x64 (m ((c : Thread nD τ).loc main_arg4)) shapeCasts_S64_S1x64 := by
  show StableHlo.after hostOps0 (W0 m ρ c) (Proc.devRef .tc main_v27) = _
  after_results_simp
  try rfl

/-- The first edge call leaves the messages of the argument features. -/
theorem W2_v28 : W2 m ρ c (Proc.devRef .tc main_v28)
    = K.messages (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((Edge0.final (V1 m ρ) c).trans ?_)
  show edgeMsg (M := 800000) (W1 m ρ c (Proc.devRef .tc main_v15)) (W1 m ρ c (Proc.devRef .tc main_v22))
    (W1 m ρ c (Proc.devRef .tc main_v24)) (W1 m ρ c (Proc.devRef .tc main_v26)) (W1 m ρ c (Proc.devRef .tc main_v27)) = _
  rw [W1_v15 m ρ c, W1_v22 m ρ c, W1_v24 m ρ c, W1_v26 m ρ c, W1_v27 m ρ c]
  try rfl

theorem W3_v31 : W3 m ρ c (Proc.devRef .tc main_v31) = K.aggregate (m ((c : Thread nD τ).loc main_arg2)) (K.messages (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps1 (W2 m ρ c) (Proc.devRef .tc main_v31) = _
  after_results_simp
  rw [W2_arg2 m ρ c, W2_v28 m ρ c]
  try rfl
theorem W3_v32 : W3 m ρ c (Proc.devRef .tc main_v32) = truncf (F := Ideal) .bf16 (m ((c : Thread nD τ).loc main_arg5)) bitsLt_bf16_f32 := by
  show StableHlo.after hostOps1 (W2 m ρ c) (Proc.devRef .tc main_v32) = _
  after_results_simp
  rw [W2_arg5 m ρ c]
  try rfl
theorem W3_v33 : W3 m ρ c (Proc.devRef .tc main_v33) = shapeCast S1x64 (m ((c : Thread nD τ).loc main_arg6)) shapeCasts_S64_S1x64 := by
  show StableHlo.after hostOps1 (W2 m ρ c) (Proc.devRef .tc main_v33) = _
  after_results_simp
  rw [W2_arg6 m ρ c]
  try rfl

/-- The first node call leaves the first layer of the arguments. -/
theorem W4_v34 : W4 m ρ c (Proc.devRef .tc main_v34)
    = K.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 4).trans ((Node1.final (V3 m ρ) c).trans ?_)
  show nodeUpd (N := 50000) (W3 m ρ c (Proc.devRef .tc main_v31)) (W3 m ρ c (Proc.devRef .tc main_v8))
    (W3 m ρ c (Proc.devRef .tc main_v32)) (W3 m ρ c (Proc.devRef .tc main_v33)) = _
  rw [W3_v31 m ρ c, W3_v8 m ρ c, W3_v32 m ρ c, W3_v33 m ρ c]
  try rfl

/-! ## The second layer -/

theorem W5_v41 : W5 m ρ c (Proc.devRef .tc main_v41) = Host.gather gather_S50000x64_S800000x1_S800000x64_1_0_n_n_0_1_164 (K.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (K.wrapCol (m ((c : Thread nD τ).loc main_arg1))) := by
  show StableHlo.after hostOps2 (W4 m ρ c) (Proc.devRef .tc main_v41) = _
  after_results_simp
  rw [W4_v34 m ρ c, W4_arg1 m ρ c]
  try rfl
theorem W5_v48 : W5 m ρ c (Proc.devRef .tc main_v48) = Host.gather gather_S50000x64_S800000x1_S800000x64_1_0_n_n_0_1_164 (K.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (K.wrapCol (m ((c : Thread nD τ).loc main_arg2))) := by
  show StableHlo.after hostOps2 (W4 m ρ c) (Proc.devRef .tc main_v48) = _
  after_results_simp
  rw [W4_v34 m ρ c, W4_arg2 m ρ c]
  try rfl
theorem W5_v50 : W5 m ρ c (Proc.devRef .tc main_v50) = truncf (F := Ideal) .bf16 (extractStridedSlice S64x64 ![0, 0] (m ((c : Thread nD τ).loc main_arg7)) slices_S128x64_S64x64_0_0) bitsLt_bf16_f32 := by
  show StableHlo.after hostOps2 (W4 m ρ c) (Proc.devRef .tc main_v50) = _
  after_results_simp
  rw [W4_arg7 m ρ c]
  try rfl
theorem W5_v52 : W5 m ρ c (Proc.devRef .tc main_v52) = truncf (F := Ideal) .bf16 (extractStridedSlice S64x64 ![64, 0] (m ((c : Thread nD τ).loc main_arg7)) slices_S128x64_S64x64_64_0) bitsLt_bf16_f32 := by
  show StableHlo.after hostOps2 (W4 m ρ c) (Proc.devRef .tc main_v52) = _
  after_results_simp
  rw [W4_arg7 m ρ c]
  try rfl
theorem W5_v53 : W5 m ρ c (Proc.devRef .tc main_v53) = shapeCast S1x64 (m ((c : Thread nD τ).loc main_arg8)) shapeCasts_S64_S1x64 := by
  show StableHlo.after hostOps2 (W4 m ρ c) (Proc.devRef .tc main_v53) = _
  after_results_simp
  rw [W4_arg8 m ρ c]
  try rfl

/-- The second edge call leaves the messages of the first layer's output. -/
theorem W6_v54 : W6 m ρ c (Proc.devRef .tc main_v54)
    = K.messages (K.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) (m ((c : Thread nD τ).loc main_arg7)) (m ((c : Thread nD τ).loc main_arg8)) := by
  refine (W6_arr m ρ c 5).trans ((Edge2.final (V5 m ρ) c).trans ?_)
  show edgeMsg (M := 800000) (W5 m ρ c (Proc.devRef .tc main_v41)) (W5 m ρ c (Proc.devRef .tc main_v48))
    (W5 m ρ c (Proc.devRef .tc main_v50)) (W5 m ρ c (Proc.devRef .tc main_v52)) (W5 m ρ c (Proc.devRef .tc main_v53)) = _
  rw [W5_v41 m ρ c, W5_v48 m ρ c, W5_v50 m ρ c, W5_v52 m ρ c, W5_v53 m ρ c]
  try rfl

theorem W7_v57 : W7 m ρ c (Proc.devRef .tc main_v57) = K.aggregate (m ((c : Thread nD τ).loc main_arg2)) (K.messages (K.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) (m ((c : Thread nD τ).loc main_arg7)) (m ((c : Thread nD τ).loc main_arg8))) := by
  show StableHlo.after hostOps3 (W6 m ρ c) (Proc.devRef .tc main_v57) = _
  after_results_simp
  rw [W6_arg2 m ρ c, W6_v54 m ρ c]
  try rfl
theorem W7_v58 : W7 m ρ c (Proc.devRef .tc main_v58) = truncf (F := Ideal) .bf16 (m ((c : Thread nD τ).loc main_arg9)) bitsLt_bf16_f32 := by
  show StableHlo.after hostOps3 (W6 m ρ c) (Proc.devRef .tc main_v58) = _
  after_results_simp
  rw [W6_arg9 m ρ c]
  try rfl
theorem W7_v59 : W7 m ρ c (Proc.devRef .tc main_v59) = shapeCast S1x64 (m ((c : Thread nD τ).loc main_arg10)) shapeCasts_S64_S1x64 := by
  show StableHlo.after hostOps3 (W6 m ρ c) (Proc.devRef .tc main_v59) = _
  after_results_simp
  rw [W6_arg10 m ρ c]
  try rfl

/-- The second node call leaves the second layer: the program's result. -/
theorem W8_v60 : W8 m ρ c (Proc.devRef .tc main_v60)
    = K.layer (K.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) := by
  refine (W8_arr m ρ c 4).trans ((Node3.final (V7 m ρ) c).trans ?_)
  show nodeUpd (N := 50000) (W7 m ρ c (Proc.devRef .tc main_v57)) (W7 m ρ c (Proc.devRef .tc main_v8))
    (W7 m ρ c (Proc.devRef .tc main_v58)) (W7 m ρ c (Proc.devRef .tc main_v59)) = _
  rw [W7_v57 m ρ c, W7_v8 m ρ c, W7_v58 m ρ c, W7_v59 m ρ c]
  try rfl

end Cert.MsgPass.KernelValue

end
-- ==== Proof.RLayer.lean ====
/-
  One layer, as the idealized reference computes it on whole arrays, and the reference's result as two layers.

  The reference gathers the source and destination rows of every edge (negative indices first wrapped by the number
  of nodes), joins the two rows side by side, multiplies by the whole edge weights, adds the bias and clips at zero;
  it adds the messages of the edges arriving at each node, divides a node's sum by its arrival count clipped below at
  one, multiplies by the node weights, adds the bias and clips at zero.  The program's result is the second layer of
  the first layer's output.
-/
import proofs.«124464_j89799176224972_1_alg».proof.ReferenceIdeal
import proofs.«124464_j89799176224972_1_alg».proof.Proof.Gen.ReferenceIdeal.Run
import Idealize.ShloMosaic.PureOps.Ideal

noncomputable section

namespace Cert.MsgPass.R

open Idealize.ShloMosaic Idealize.ShloMosaic.TcCoe Idealize.SL.Sem Cert.ReferenceIdeal

variable [Cert.ReferenceIdeal.Facts₀]
open Cert.ReferenceIdeal.Facts₀

/-- An index vector as a column, negative entries wrapped by the number of nodes. -/
def wrapCol (ix : (⟨S800000, .i32⟩ : BufTy).Contents (Elt Ideal)) : (⟨S800000x1, .i32⟩ : BufTy).Contents (Elt Ideal) :=
  broadcastInDim S800000x1 ![0] bcast_S800000_S800000x1_0
    (select (cmpi .slt ix (broadcastInDim S800000 ![] bcast_S_S800000 (constantI S_ 32 0#32)))
      (addi ix (broadcastInDim S800000 ![] bcast_S_S800000 (constantI S_ 32 50000#32))) ix)

/-- An index vector as a column, as it is. -/
def rawCol (ix : (⟨S800000, .i32⟩ : BufTy).Contents (Elt Ideal)) : (⟨S800000x1, .i32⟩ : BufTy).Contents (Elt Ideal) :=
  broadcastInDim S800000x1 ![0] bcast_S800000_S800000x1_0 ix

/-- Every node's arrival count — a one added per arriving edge — clipped below at one. -/
def counts (dst : (⟨S800000, .i32⟩ : BufTy).Contents (Elt Ideal)) : (⟨S50000, .f32⟩ : BufTy).Contents (Elt Ideal) :=
  maximumf (F := Ideal) (φ := .f32)
    (Host.scatterAdd (F := Ideal) (φ := .f32) scatter_S50000_S800000x1_S800000_n_0_0_1
      (broadcastInDim S50000 ![] bcast_S_S50000 (constant (F := Ideal) S_ .f32 0x00000000#32))
      (rawCol dst)
      (broadcastInDim S800000 ![] bcast_S_S800000 (constant (F := Ideal) S_ .f32 0x3F800000#32)))
    (broadcastInDim S50000 ![] bcast_S_S50000 (constant (F := Ideal) S_ .f32 0x3F800000#32))

/-- The messages of all edges from the node features x. -/
def messages (x : (⟨S50000x64, .f32⟩ : BufTy).Contents (Elt Ideal)) (src dst : (⟨S800000, .i32⟩ : BufTy).Contents (Elt Ideal)) (We : (⟨S128x64, .f32⟩ : BufTy).Contents (Elt Ideal)) (be : (⟨S64, .f32⟩ : BufTy).Contents (Elt Ideal)) :
    (⟨S800000x64, .f32⟩ : BufTy).Contents (Elt Ideal) :=
  maximumf (F := Ideal) (φ := .f32)
    (addf (F := Ideal) (φ := .f32)
      (Host.dotGeneral (F := Ideal) (φ₁ := .f32) (φ₂ := .f32) dot_S800000x128_S128x64_S800000x64_1_0_0_1_n_n none
        (concatenate S800000x128 1
          [⟨S800000x64, Host.gather gather_S50000x64_S800000x1_S800000x64_1_0_n_n_0_1_164 x (wrapCol src)⟩,
           ⟨S800000x64, Host.gather gather_S50000x64_S800000x1_S800000x64_1_0_n_n_0_1_164 x (wrapCol dst)⟩]
          concatenates_S800000x64_S800000x64_S800000x128_d1)
        We)
      (broadcastInDim S800000x64 ![0, 1] bcast_S1x64_S800000x64_0_1 (broadcastInDim S1x64 ![1] bcast_S64_S1x64_1 be)))
    (broadcastInDim S800000x64 ![] bcast_S_S800000x64 (constant (F := Ideal) S_ .f32 0x00000000#32))

/-- The messages added up per destination node. -/
def aggregate (dst : (⟨S800000, .i32⟩ : BufTy).Contents (Elt Ideal)) (msg : (⟨S800000x64, .f32⟩ : BufTy).Contents (Elt Ideal)) : (⟨S50000x64, .f32⟩ : BufTy).Contents (Elt Ideal) :=
  Host.scatterAdd (F := Ideal) (φ := .f32) scatter_S50000x64_S800000x1_S800000x64_1_0_0_1
    (broadcastInDim S50000x64 ![] bcast_S_S50000x64 (constant (F := Ideal) S_ .f32 0x00000000#32)) (rawCol dst) msg

/-- A node's new row from the aggregated messages. -/
def update (agg : (⟨S50000x64, .f32⟩ : BufTy).Contents (Elt Ideal)) (dst : (⟨S800000, .i32⟩ : BufTy).Contents (Elt Ideal)) (Wn : (⟨S64x64, .f32⟩ : BufTy).Contents (Elt Ideal)) (bn : (⟨S64, .f32⟩ : BufTy).Contents (Elt Ideal)) :
    (⟨S50000x64, .f32⟩ : BufTy).Contents (Elt Ideal) :=
  maximumf (F := Ideal) (φ := .f32)
    (addf (F := Ideal) (φ := .f32)
      (Host.dotGeneral (F := Ideal) (φ₁ := .f32) (φ₂ := .f32) dot_S50000x64_S64x64_S50000x64_1_0_0_1_n_n none
        (Host.divf (F := Ideal) (φ := .f32) agg
          (broadcastInDim S50000x64 ![0, 1] bcast_S50000x1_S50000x64_0_1
            (broadcastInDim S50000x1 ![0] bcast_S50000_S50000x1_0 (counts dst))))
        Wn)
      (broadcastInDim S50000x64 ![0, 1] bcast_S1x64_S50000x64_0_1 (broadcastInDim S1x64 ![1] bcast_S64_S1x64_1 bn)))
    (broadcastInDim S50000x64 ![] bcast_S_S50000x64 (constant (F := Ideal) S_ .f32 0x00000000#32))

/-- One layer of the reference. -/
def layer (x : (⟨S50000x64, .f32⟩ : BufTy).Contents (Elt Ideal)) (src dst : (⟨S800000, .i32⟩ : BufTy).Contents (Elt Ideal)) (We : (⟨S128x64, .f32⟩ : BufTy).Contents (Elt Ideal)) (be : (⟨S64, .f32⟩ : BufTy).Contents (Elt Ideal))
    (Wn : (⟨S64x64, .f32⟩ : BufTy).Contents (Elt Ideal)) (bn : (⟨S64, .f32⟩ : BufTy).Contents (Elt Ideal)) : (⟨S50000x64, .f32⟩ : BufTy).Contents (Elt Ideal) :=
  update (aggregate dst (messages x src dst We be)) dst Wn bn

end Cert.MsgPass.R

namespace Cert.MsgPass.R

open Idealize.ShloMosaic Idealize.ShloMosaic.TcCoe Idealize.SL.Sem Cert.ReferenceIdeal Cert.ReferenceIdeal.Gen

set_option maxRecDepth 8192 in
/-- The reference's result term is the second layer of the first layer of the arguments. -/
theorem result_eq (m : (ℓ : Loc nD τ sig) → Buf (Elt Ideal) ℓ) (c : Dev nD) :
    Cert.ReferenceIdeal.Value.res_main_v73 (F := Ideal) m c
      = layer
          (layer (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)))
          (m ((c.tc : Thread nD τ).loc main_arg1)) (m ((c.tc : Thread nD τ).loc main_arg2))
          (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.Value.res_main_v73
  rfl

end Cert.MsgPass.R

end
-- ==== Proof.LibMatrixLayout.lean ====
/-
  Small matrices' layout operations read at an index written by coordinates.  General lemmas: any element type, any
  extents.

  * a vector [a] reshaped to a column [a, 1];
  * a vector [b] broadcast in dimension 1 to a row [1, b], and [a] in dimension 0 to a column [a, 1];
  * a row [1, b] broadcast in dimensions (0, 1) to [a, b], and a column [a, 1] to [a, b];
  * a scalar broadcast to any shape;
  * two matrices [a, b] and [a, c] joined along their columns into [a, b + c], read in the left and the right part.
-/
import Idealize.ShloMosaic.Lib.Pipeline.Value
import Idealize.ShloMosaic.Lib.ValueIdx

namespace Cert.LibMatrixLayout

open Idealize.ShloMosaic Idealize.ShloMosaic.ValueIdx

variable {α : Type}

/-- A vector reshaped to a column reads, at (i, 0), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector broadcast in dimension 1 to a row reads, at (0, j), the vector's entry j. -/
theorem bcast_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A vector broadcast in dimension 0 to a column reads, at (i, 0), the vector's entry i. -/
theorem bcast_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A row broadcast in dimensions (0, 1) down the rows of [a, b] reads, at (i, j), the row's entry j. -/
theorem bcast_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A column broadcast in dimensions (0, 1) along the rows of [a, b] reads, at (i, j), the column's entry i. -/
theorem bcast_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A scalar broadcast to any shape reads the scalar everywhere. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- Two matrices joined along their columns read, in the first b columns, the left one. -/
theorem concat_cols_left {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin b)
    (k : Fin n) (hk : k.val = q.val) :
    concatenate ⟨2, ![a, n]⟩ (1 : Fin 2) [⟨⟨2, ![a, b]⟩, x₁⟩, ⟨⟨2, ![a, c]⟩, x₂⟩] h (ix2 i k) = x₁ (ix2 i q) := by
  refine concatenate_pair_apply_left (1 : Fin 2) x₁ x₂ h (ix2 i k) rfl (ix2 i q) fun ax => ?_
  match ax with
  | ⟨0, _⟩ => rfl
  | ⟨1, _⟩ => exact hk.symm

/-- Two matrices joined along their columns read, past the first b columns, the right one. -/
theorem concat_cols_right {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin c)
    (k : Fin n) (hk : k.val = b + q.val) :
    concatenate ⟨2, ![a, n]⟩ (1 : Fin 2) [⟨⟨2, ![a, b]⟩, x₁⟩, ⟨⟨2, ![a, c]⟩, x₂⟩] h (ix2 i k) = x₂ (ix2 i q) := by
  refine concatenate_pair_apply_right (1 : Fin 2) x₁ x₂ h (ix2 i k) rfl rfl (ix2 i q) (fun ax hax => ?_) ?_
  · match ax with
    | ⟨0, _⟩ => rfl
    | ⟨1, _⟩ => exact absurd rfl hax
  · show q.val + b = k.val
    omega

end Cert.LibMatrixLayout
-- ==== Proof.Bridge.lean ====
/-
  The two programs' layers are one function.

  Both gather the same rows with the same index columns and add the messages up with the same scatter-add; what
  differs is how an edge's message and a node's new row are spelt.
  * The reference multiplies the joined row (source features, then destination features) by the whole edge weights: a
    128-term sum, whose first 64 terms are the source row against the upper half of the weights and whose last 64 are
    the destination row against the lower half — the kernel's two 64-term sums.
  * The reference divides a node's aggregated row by its clipped count; the kernel scales it by one over the clipped
    count.  The clipped count is at least one, so it is not zero, and off zero the two agree on every extended real.
  Neither step needs the inputs to be finite.
-/
import proofs.«124464_j89799176224972_1_alg».proof.Proof.KLayer
import proofs.«124464_j89799176224972_1_alg».proof.Proof.RLayer
import proofs.«124464_j89799176224972_1_alg».proof.Proof.Spec
import proofs.«124464_j89799176224972_1_alg».proof.Proof.LibPlainDot
import proofs.«124464_j89799176224972_1_alg».proof.Proof.LibMatrixLayout
import Idealize.ShloMosaic.Lib.ValueLayout
import Idealize.ShloMosaic.Lib.ValueIdx

noncomputable section

set_option maxRecDepth 16384

namespace Cert.MsgPass.Bridge

open Idealize.ShloMosaic Idealize.ShloMosaic.ValueIdx Cert.MsgPass Cert.LibMatrixLayout

variable [Cert.KernelIdeal.Facts₀] [Cert.ReferenceIdeal.Facts₀]

/-- A 64-term sum against the upper half of a 128-row matrix plus a 64-term sum against its lower half is the 128-term
    sum of the joined row against the whole matrix. -/
theorem halves_join {M : Nat} (s d : (⟨2, ![M, 64]⟩ : Shape).Idx → EReal) (cat : (⟨2, ![M, 64 + 64]⟩ : Shape).Idx → EReal)
    (We : (⟨2, ![64 + 64, 64]⟩ : Shape).Idx → EReal) (wa wb : (⟨2, ![64, 64]⟩ : Shape).Idx → EReal) (p : Fin M) (j : Fin 64)
    (hl : ∀ q : Fin 64, cat (ix2 p (Fin.castAdd 64 q)) = s (ix2 p q))
    (hr : ∀ q : Fin 64, cat (ix2 p (Fin.natAdd 64 q)) = d (ix2 p q))
    (ha : ∀ q : Fin 64, wa (ix2 q j) = We (ix2 (Fin.castAdd 64 q) j))
    (hb : ∀ q : Fin 64, wb (ix2 q j) = We (ix2 (Fin.natAdd 64 q) j)) :
    (∑ q : Fin 64, s (ix2 p q) * wa (ix2 q j)) + (∑ q : Fin 64, d (ix2 p q) * wb (ix2 q j))
      = ∑ k : Fin (64 + 64), cat (ix2 p k) * We (ix2 k j) := by
  rw [sum_halves]
  simp only [hl, hr, ha, hb]

theorem wrapCol_eq (ix : (⟨Cert.KernelIdeal.S800000, .i32⟩ : BufTy).Contents (Elt Ideal)) : K.wrapCol ix = R.wrapCol ix := rfl
theorem rawCol_eq (ix : (⟨Cert.KernelIdeal.S800000, .i32⟩ : BufTy).Contents (Elt Ideal)) : K.rawCol ix = R.rawCol ix := rfl
theorem counts_eq (dst : (⟨Cert.KernelIdeal.S800000, .i32⟩ : BufTy).Contents (Elt Ideal)) : K.counts dst = R.counts dst := rfl
theorem aggregate_eq (dst : (⟨Cert.KernelIdeal.S800000, .i32⟩ : BufTy).Contents (Elt Ideal)) (msg : (⟨Cert.KernelIdeal.S800000x64, .f32⟩ : BufTy).Contents (Elt Ideal)) :
    K.aggregate dst msg = R.aggregate dst msg := rfl

/-- Every edge's message, in the kernel's spelling and in the reference's. -/
theorem messages_eq (x : (⟨Cert.KernelIdeal.S50000x64, .f32⟩ : BufTy).Contents (Elt Ideal)) (src dst : (⟨Cert.KernelIdeal.S800000, .i32⟩ : BufTy).Contents (Elt Ideal)) (We : (⟨Cert.KernelIdeal.S128x64, .f32⟩ : BufTy).Contents (Elt Ideal))
    (be : (⟨Cert.KernelIdeal.S64, .f32⟩ : BufTy).Contents (Elt Ideal)) : K.messages x src dst We be = R.messages x src dst We be := by
  funext i
  obtain ⟨p, j, rfl⟩ : ∃ (p : Fin 800000) (j : Fin 64), i = ix2 p j := ⟨i 0, i 1, eq_ix2 i⟩
  unfold K.messages R.messages
  rw [edgeMsg_ix2, maximumf_apply, addf_apply,
    PlainDot.dotGeneral_ix2 Cert.ReferenceIdeal.dot_S800000x128_S128x64_S800000x64_1_0_0_1_n_n rfl,
    bcast_1b_ab_apply, bcast_b_1b_apply, bcast_scalar_apply, shapeCast_a_1a_apply]
  refine congrArg₂ max (congrArg₂ (· + ·) ?_ rfl) rfl
  refine halves_join _ _ _ _ _ _ p j (fun q => ?_) (fun q => ?_) (fun q => ?_) (fun q => ?_)
  · exact concat_cols_left _ _ _ p q _ rfl
  · exact concat_cols_right _ _ _ p q _ rfl
  · rw [truncf_apply, slice2_axis0_eq]
    exact congrArg We (congrArg (fun k => ix2 k j) (Fin.ext (Nat.zero_add _)))
  · rw [truncf_apply, slice2_axis0_eq]
    rfl

/-- The host's quotient of two arrays, entry by entry. -/
theorem hostDivf_apply {s : Shape} {φ : FTy} (a b : FVec Ideal s φ) (i : s.Idx) :
    Host.divf a b i = Ideal.div (a i) (b i) := rfl

/-- A node's clipped count is not zero. -/
theorem counts_ne_zero (dst : (⟨Cert.KernelIdeal.S800000, .i32⟩ : BufTy).Contents (Elt Ideal)) (p : Fin 50000) : R.counts dst (ix1 p) ≠ 0 := by
  unfold R.counts
  rw [maximumf_apply, bcast_scalar_apply, constant_apply, one_word]
  exact max_one_ne_zero _

/-- A node's new row, in the kernel's spelling and in the reference's. -/
theorem update_eq (agg : (⟨Cert.KernelIdeal.S50000x64, .f32⟩ : BufTy).Contents (Elt Ideal)) (dst : (⟨Cert.KernelIdeal.S800000, .i32⟩ : BufTy).Contents (Elt Ideal)) (Wn : (⟨Cert.KernelIdeal.S64x64, .f32⟩ : BufTy).Contents (Elt Ideal))
    (bn : (⟨Cert.KernelIdeal.S64, .f32⟩ : BufTy).Contents (Elt Ideal)) :
    nodeUpd (N := 50000) agg (K.recipCol dst) (truncf (F := Ideal) .bf16 Wn Cert.KernelIdeal.Facts₀.bitsLt_bf16_f32)
        (shapeCast Cert.KernelIdeal.S1x64 bn Cert.KernelIdeal.Facts₀.shapeCasts_S64_S1x64)
      = R.update agg dst Wn bn := by
  funext i
  obtain ⟨p, j, rfl⟩ : ∃ (p : Fin 50000) (j : Fin 64), i = ix2 p j := ⟨i 0, i 1, eq_ix2 i⟩
  unfold K.recipCol R.update
  rw [nodeUpd_ix2, counts_eq, maximumf_apply, addf_apply,
    PlainDot.dotGeneral_ix2 Cert.ReferenceIdeal.dot_S50000x64_S64x64_S50000x64_1_0_0_1_n_n rfl,
    bcast_1b_ab_apply, bcast_b_1b_apply, bcast_scalar_apply, shapeCast_a_1a_apply, shapeCast_a_a1_apply]
  refine congrArg₂ max (congrArg₂ (· + ·) (Finset.sum_congr rfl fun q _ => ?_) rfl) rfl
  refine congrArg₂ (· * ·) ?_ rfl
  rw [hostDivf_apply, hostDivf_apply, bcast_scalar_apply, constant_apply, one_word, bcast_a1_ab_apply, bcast_a_a1_apply]
  exact mul_one_div _ _ (counts_ne_zero dst p)

/-- One layer of the kernel program is one layer of the reference. -/
theorem layer_eq (x : (⟨Cert.KernelIdeal.S50000x64, .f32⟩ : BufTy).Contents (Elt Ideal)) (src dst : (⟨Cert.KernelIdeal.S800000, .i32⟩ : BufTy).Contents (Elt Ideal)) (We : (⟨Cert.KernelIdeal.S128x64, .f32⟩ : BufTy).Contents (Elt Ideal))
    (be : (⟨Cert.KernelIdeal.S64, .f32⟩ : BufTy).Contents (Elt Ideal)) (Wn : (⟨Cert.KernelIdeal.S64x64, .f32⟩ : BufTy).Contents (Elt Ideal)) (bn : (⟨Cert.KernelIdeal.S64, .f32⟩ : BufTy).Contents (Elt Ideal)) :
    K.layer x src dst We be Wn bn = R.layer x src dst We be Wn bn := by
  unfold K.layer R.layer
  rw [messages_eq, aggregate_eq]
  exact update_eq _ dst Wn bn

end Cert.MsgPass.Bridge

end
-- ==== Proof.lean ====
/-
  The certificate of a two-layer message-passing network: a kernel program that runs each layer as an edge call and a
  node call, with the gathers and the scatter-adds between them on the host, against a plain reference.

  At the ideal instance both programs compute, layer by layer, the same function of the arguments.  The kernel side is
  read off the program's eight segments (KernelRun, KernelValue, over the four call modules); the reference side is its
  generated run (RLayer); Bridge joins the two spellings of a layer — a 128-term sum split into its two halves, and a
  division by a count that is at least one written as a product with its reciprocal.  Nothing in the join needs the
  inputs to be finite, so the precondition is not opened.  The three frame claims are the generated frames, and the
  idealization rewrote nothing, so there is nothing to preserve.
-/
import proofs.«124464_j89799176224972_1_alg».proof.Defs
import proofs.«124464_j89799176224972_1_alg».proof.Proof.Gen.Kernel
import proofs.«124464_j89799176224972_1_alg».proof.Proof.Gen.Kernel.Skeleton
import proofs.«124464_j89799176224972_1_alg».proof.Proof.Gen.Kernel.Launch
import proofs.«124464_j89799176224972_1_alg».proof.Proof.Gen.Kernel.Points
import proofs.«124464_j89799176224972_1_alg».proof.Proof.Gen.Kernel.Frame
import proofs.«124464_j89799176224972_1_alg».proof.Proof.Gen.KernelIdeal
import proofs.«124464_j89799176224972_1_alg».proof.Proof.Gen.KernelIdeal.Skeleton
import proofs.«124464_j89799176224972_1_alg».proof.Proof.Gen.KernelIdeal.Launch
import proofs.«124464_j89799176224972_1_alg».proof.Proof.Gen.KernelIdeal.Points
import proofs.«124464_j89799176224972_1_alg».proof.Proof.Gen.KernelIdeal.Frame
import proofs.«124464_j89799176224972_1_alg».proof.Proof.Gen.ReferenceIdeal
import proofs.«124464_j89799176224972_1_alg».proof.Proof.Gen.ReferenceIdeal.Run
import proofs.«124464_j89799176224972_1_alg».proof.Proof.Gen.ReferenceIdeal.Read
import proofs.«124464_j89799176224972_1_alg».proof.Proof.Gen.Pre_finite_inputs
import proofs.«124464_j89799176224972_1_alg».proof.Proof.KernelRun
import proofs.«124464_j89799176224972_1_alg».proof.Proof.KernelValue
import proofs.«124464_j89799176224972_1_alg».proof.Proof.RLayer
import proofs.«124464_j89799176224972_1_alg».proof.Proof.Bridge
import Idealize.ShloMosaic.Adequacy
import Idealize.ShloMosaic.Init

noncomputable section

namespace Cert.Proof

open Idealize.ShloMosaic Idealize.ShloMosaic.TcCoe Idealize.SL.Sem

/-- Run from memories that agree on the arguments, the idealized kernel program and the idealized reference both end
    with the second layer of the first layer of the arguments in their result buffers. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.MsgPass.K.layer (Cert.MsgPass.K.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.MsgPass.KernelValue.W8_v60 m ρ c), (h c).2⟩)
      (Cert.MsgPass.KernelRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.MsgPass.R.result_eq, e0, e1, e2, e3, e4, e5, e6, e7, e8, e9, e10]
    exact ((Cert.MsgPass.Bridge.layer_eq _ _ _ _ _ _ _).trans
      (congrArg (fun x => Cert.MsgPass.R.layer x _ _ _ _ _ _) (Cert.MsgPass.Bridge.layer_eq _ _ _ _ _ _ _))).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
